-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x500000 : Shape := ⟨2, ![2, 500000]⟩
abbrev S50000 : Shape := ⟨1, ![50000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000 : S_.BroadcastsInDim S50000 (![] : Fin 0 → Fin S50000.rank)
  reducesTo_S50000_S_d0 : S50000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x256 .f32) (main_arg1 : IVec S2x500000 32) (main_arg2 : FVec F S50000 .f32) (main_arg3 : FVec F S256x256 .f32) (main_arg4 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000 .f32 := Host.absf main_arg2
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x256 : Shape := ⟨2, ![50000, 256]⟩
abbrev S2x500000 : Shape := ⟨2, ![2, 500000]⟩
abbrev S50000 : Shape := ⟨1, ![50000]⟩
abbrev S256x256 : Shape := ⟨2, ![256, 256]⟩
abbrev S256 : Shape := ⟨1, ![256]⟩
abbrev S1x500000 : Shape := ⟨2, ![1, 500000]⟩
abbrev S500000 : Shape := ⟨1, ![500000]⟩
abbrev S2000x256 : Shape := ⟨2, ![2000, 256]⟩
abbrev S_ : Shape := ⟨0, ![]⟩
abbrev S500000x1 : Shape := ⟨2, ![500000, 1]⟩
abbrev S500000x256 : Shape := ⟨2, ![500000, 256]⟩
abbrev S50000x1 : Shape := ⟨2, ![50000, 1]⟩
abbrev S1x256 : Shape := ⟨2, ![1, 256]⟩

abbrev nBuf : Space → Nat
  | .hbm => 84
  | .vmem => 5
  | .smem => 0
  | _ => 0

abbrev bufTy : (tb : Table) → Fin (tcTables nBuf tb) → BufTy
  | .hbm, ⟨0, _⟩ => ⟨S50000x256, .f32⟩
  | .hbm, ⟨1, _⟩ => ⟨S2x500000, .i32⟩
  | .hbm, ⟨2, _⟩ => ⟨S50000, .f32⟩
  | .hbm, ⟨3, _⟩ => ⟨S256x256, .f32⟩
  | .hbm, ⟨4, _⟩ => ⟨S256, .f32⟩
  | .hbm, ⟨5, _⟩ => ⟨S1x500000, .i32⟩
  | .hbm, ⟨6, _⟩ => ⟨S500000, .i32⟩
  | .hbm, ⟨7, _⟩ => ⟨S1x500000, .i32⟩
  | .hbm, ⟨8, _⟩ => ⟨S500000, .i32⟩
  | .hbm, ⟨9, _⟩ => ⟨S50000x256, .f32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000, .f32⟩
  | .hbm, ⟨19, _⟩ => ⟨S_, .f32⟩
  | .hbm, ⟨20, _⟩ => ⟨S50000, .f32⟩
  | .hbm, ⟨21, _⟩ => ⟨S500000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S500000, .f32⟩
  | .hbm, ⟨35, _⟩ => ⟨S_, .f32⟩
  | .hbm, ⟨36, _⟩ => ⟨S50000, .f32⟩
  | .hbm, ⟨37, _⟩ => ⟨S500000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .i1⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S_, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S_, .i32⟩
  | .hbm, ⟨50, _⟩ => ⟨S500000, .i32⟩
  | .hbm, ⟨51, _⟩ => ⟨S500000, .i1⟩
  | .hbm, ⟨52, _⟩ => ⟨S_, .i32⟩
  | .hbm, ⟨53, _⟩ => ⟨S500000, .i32⟩
  | .hbm, ⟨54, _⟩ => ⟨S500000, .i32⟩
  | .hbm, ⟨55, _⟩ => ⟨S500000, .i32⟩
  | .hbm, ⟨56, _⟩ => ⟨S500000x1, .i32⟩
  | .hbm, ⟨57, _⟩ => ⟨S500000x256, .f32⟩
  | .hbm, ⟨58, _⟩ => ⟨S_, .f32⟩
  | .hbm, ⟨59, _⟩ => ⟨S50000x256, .f32⟩
  | .hbm, ⟨60, _⟩ => ⟨S500000x1, .i32⟩
  | .hbm, ⟨61, _⟩ => ⟨S50000x256, .f32⟩
  | .hbm, ⟨62, _⟩ => ⟨S50000x1, .f32⟩
  | .hbm, ⟨63, _⟩ => ⟨S50000x256, .f32⟩
  | .hbm, ⟨64, _⟩ => ⟨S50000x256, .f32⟩
  | .hbm, ⟨65, _⟩ => ⟨S_, .i32⟩
  | .hbm, ⟨66, _⟩ => ⟨S500000, .i32⟩
  | .hbm, ⟨67, _⟩ => ⟨S500000, .i1⟩
  | .hbm, ⟨68, _⟩ => ⟨S_, .i32⟩
  | .hbm, ⟨69, _⟩ => ⟨S500000, .i32⟩
  | .hbm, ⟨70, _⟩ => ⟨S500000, .i32⟩
  | .hbm, ⟨71, _⟩ => ⟨S500000, .i32⟩
  | .hbm, ⟨72, _⟩ => ⟨S500000x1, .i32⟩
  | .hbm, ⟨73, _⟩ => ⟨S500000x256, .f32⟩
  | .hbm, ⟨74, _⟩ => ⟨S_, .f32⟩
  | .hbm, ⟨75, _⟩ => ⟨S50000x256, .f32⟩
  | .hbm, ⟨76, _⟩ => ⟨S500000x1, .i32⟩
  | .hbm, ⟨77, _⟩ => ⟨S50000x256, .f32⟩
  | .hbm, ⟨78, _⟩ => ⟨S50000x1, .f32⟩
  | .hbm, ⟨79, _⟩ => ⟨S50000x256, .f32⟩
  | .hbm, ⟨80, _⟩ => ⟨S50000x256, .f32⟩
  | .hbm, ⟨81, _⟩ => ⟨S1x256, .f32⟩
  | .hbm, ⟨82, _⟩ => ⟨S50000x256, .f32⟩
  | .hbm, ⟨83, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_v28 : Ref sig .tc := ⟨.hbm, 48, rfl⟩
abbrev main_c_9 : Ref sig .tc := ⟨.hbm, 49, rfl⟩
abbrev main_v29 : Ref sig .tc := ⟨.hbm, 50, rfl⟩
abbrev main_v30 : Ref sig .tc := ⟨.hbm, 51, rfl⟩
abbrev main_c_10 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_12 : Ref sig .tc := ⟨.hbm, 65, rfl⟩
abbrev main_v42 : Ref sig .tc := ⟨.hbm, 66, rfl⟩
abbrev main_v43 : Ref sig .tc := ⟨.hbm, 67, rfl⟩
abbrev main_c_13 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_14 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S500000 : S_.BroadcastsInDim S500000 (![] : Fin 0 → Fin S500000.rank)
  bcast_S500000_S500000x1_0 : S500000.BroadcastsInDim S500000x1 (![0] : Fin 1 → Fin S500000x1.rank)
  bcast_S_S50000 : S_.BroadcastsInDim S50000 (![] : Fin 0 → Fin S50000.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S2000x256_S256x256_S2000x256_1_0_0_1_n_n_wf : DotDims.WF S2000x256 S256x256 S2000x256 [1] [0] [0] [1] [] []
  gather_S50000_S500000x1_S500000_n_0_n_n_0_1_1_wf : GatherDims.WF S50000 S500000x1 S500000 [] [0] [] [0] [] 1 ![1]
  scatter_S50000_S500000x1_S500000_n_0_0_1_wf : ScatterDims.WF S50000 S500000x1 S500000 [] [0] [0] 1
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x500000 : Shape := ⟨2, ![2, 500000]⟩
abbrev S50000 : Shape := ⟨1, ![50000]⟩
abbrev S256x256 : Shape := ⟨2, ![256, 256]⟩
abbrev S256 : Shape := ⟨1, ![256]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S1x256 : Shape := ⟨2, ![1, 256]⟩

abbrev nBuf : Space → Nat
  | .hbm => 102
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x500000, .i32⟩
  | .hbm, ⟨2, _⟩ => ⟨S50000, .f32⟩
  | .hbm, ⟨3, _⟩ => ⟨S256x256, .f32⟩
  | .hbm, ⟨4, _⟩ => ⟨S256, .f32⟩
  | .hbm, ⟨5, _⟩ => ⟨S1x500000, .i32⟩
  | .hbm, ⟨6, _⟩ => ⟨S500000, .i32⟩
  | .hbm, ⟨7, _⟩ => ⟨S1x500000, .i32⟩
  | .hbm, ⟨8, _⟩ => ⟨S500000, .i32⟩
  | .hbm, ⟨9, _⟩ => ⟨S50000x256, .f32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000, .f32⟩
  | .hbm, ⟨19, _⟩ => ⟨S_, .f32⟩
  | .hbm, ⟨20, _⟩ => ⟨S50000, .f32⟩
  | .hbm, ⟨21, _⟩ => ⟨S500000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S500000, .f32⟩
  | .hbm, ⟨35, _⟩ => ⟨S_, .f32⟩
  | .hbm, ⟨36, _⟩ => ⟨S50000, .f32⟩
  | .hbm, ⟨37, _⟩ => ⟨S500000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .i1⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S_, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S_, .i32⟩
  | .hbm, ⟨50, _⟩ => ⟨S500000, .i32⟩
  | .hbm, ⟨51, _⟩ => ⟨S500000, .i1⟩
  | .hbm, ⟨52, _⟩ => ⟨S_, .i32⟩
  | .hbm, ⟨53, _⟩ => ⟨S500000, .i32⟩
  | .hbm, ⟨54, _⟩ => ⟨S500000, .i32⟩
  | .hbm, ⟨55, _⟩ => ⟨S500000, .i32⟩
  | .hbm, ⟨56, _⟩ => ⟨S500000x1, .i32⟩
  | .hbm, ⟨57, _⟩ => ⟨S500000, .f32⟩
  | .hbm, ⟨58, _⟩ => ⟨S500000x1, .f32⟩
  | .hbm, ⟨59, _⟩ => ⟨S_, .i32⟩
  | .hbm, ⟨60, _⟩ => ⟨S500000, .i32⟩
  | .hbm, ⟨61, _⟩ => ⟨S500000, .i1⟩
  | .hbm, ⟨62, _⟩ => ⟨S_, .i32⟩
  | .hbm, ⟨63, _⟩ => ⟨S500000, .i32⟩
  | .hbm, ⟨64, _⟩ => ⟨S500000, .i32⟩
  | .hbm, ⟨65, _⟩ => ⟨S500000, .i32⟩
  | .hbm, ⟨66, _⟩ => ⟨S500000x1, .i32⟩
  | .hbm, ⟨67, _⟩ => ⟨S500000x256, .f32⟩
  | .hbm, ⟨68, _⟩ => ⟨S500000x256, .f32⟩
  | .hbm, ⟨69, _⟩ => ⟨S500000x256, .f32⟩
  | .hbm, ⟨70, _⟩ => ⟨S_, .f32⟩
  | .hbm, ⟨71, _⟩ => ⟨S50000x256, .f32⟩
  | .hbm, ⟨72, _⟩ => ⟨S500000x1, .i32⟩
  | .hbm, ⟨73, _⟩ => ⟨S50000x256, .f32⟩
  | .hbm, ⟨74, _⟩ => ⟨S_, .i32⟩
  | .hbm, ⟨75, _⟩ => ⟨S500000, .i32⟩
  | .hbm, ⟨76, _⟩ => ⟨S500000, .i1⟩
  | .hbm, ⟨77, _⟩ => ⟨S_, .i32⟩
  | .hbm, ⟨78, _⟩ => ⟨S500000, .i32⟩
  | .hbm, ⟨79, _⟩ => ⟨S500000, .i32⟩
  | .hbm, ⟨80, _⟩ => ⟨S500000, .i32⟩
  | .hbm, ⟨81, _⟩ => ⟨S500000x1, .i32⟩
  | .hbm, ⟨82, _⟩ => ⟨S500000, .f32⟩
  | .hbm, ⟨83, _⟩ => ⟨S500000x1, .f32⟩
  | .hbm, ⟨84, _⟩ => ⟨S_, .i32⟩
  | .hbm, ⟨85, _⟩ => ⟨S500000, .i32⟩
  | .hbm, ⟨86, _⟩ => ⟨S500000, .i1⟩
  | .hbm, ⟨87, _⟩ => ⟨S_, .i32⟩
  | .hbm, ⟨88, _⟩ => ⟨S500000, .i32⟩
  | .hbm, ⟨89, _⟩ => ⟨S500000, .i32⟩
  | .hbm, ⟨90, _⟩ => ⟨S500000, .i32⟩
  | .hbm, ⟨91, _⟩ => ⟨S500000x1, .i32⟩
  | .hbm, ⟨92, _⟩ => ⟨S500000x256, .f32⟩
  | .hbm, ⟨93, _⟩ => ⟨S500000x256, .f32⟩
  | .hbm, ⟨94, _⟩ => ⟨S500000x256, .f32⟩
  | .hbm, ⟨95, _⟩ => ⟨S_, .f32⟩
  | .hbm, ⟨96, _⟩ => ⟨S50000x256, .f32⟩
  | .hbm, ⟨97, _⟩ => ⟨S500000x1, .i32⟩
  | .hbm, ⟨98, _⟩ => ⟨S50000x256, .f32⟩
  | .hbm, ⟨99, _⟩ => ⟨S1x256, .f32⟩
  | .hbm, ⟨100, _⟩ => ⟨S50000x256, .f32⟩
  | .hbm, ⟨101, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_v28 : Ref sig .tc := ⟨.hbm, 48, rfl⟩
abbrev main_c_9 : Ref sig .tc := ⟨.hbm, 49, rfl⟩
abbrev main_v29 : Ref sig .tc := ⟨.hbm, 50, rfl⟩
abbrev main_v30 : Ref sig .tc := ⟨.hbm, 51, rfl⟩
abbrev main_c_10 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_11 : Ref sig .tc := ⟨.hbm, 59, rfl⟩
abbrev main_v37 : Ref sig .tc := ⟨.hbm, 60, rfl⟩
abbrev main_v38 : Ref sig .tc := ⟨.hbm, 61, rfl⟩
abbrev main_c_12 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_13 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_14 : Ref sig .tc := ⟨.hbm, 74, rfl⟩
abbrev main_v49 : Ref sig .tc := ⟨.hbm, 75, rfl⟩
abbrev main_v50 : Ref sig .tc := ⟨.hbm, 76, rfl⟩
abbrev main_c_15 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_16 : Ref sig .tc := ⟨.hbm, 84, rfl⟩
abbrev main_v57 : Ref sig .tc := ⟨.hbm, 85, rfl⟩
abbrev main_v58 : Ref sig .tc := ⟨.hbm, 86, rfl⟩
abbrev main_c_17 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_18 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000 : S_.BroadcastsInDim S50000 (![] : Fin 0 → Fin S50000.rank)
  bcast_S500000x1_S500000x256_0_1 : S500000x1.BroadcastsInDim S500000x256 (![0, 1] : Fin 2 → Fin S500000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x256_S256x256_S50000x256_1_0_0_1_n_n_wf : DotDims.WF S50000x256 S256x256 S50000x256 [1] [0] [0] [1] [] []
  gather_S50000_S500000x1_S500000_n_0_n_n_0_1_1_wf : GatherDims.WF S50000 S500000x1 S500000 [] [0] [] [0] [] 1 ![1]
  scatter_S50000_S500000x1_S500000_n_0_0_1_wf : ScatterDims.WF S50000 S500000x1 S500000 [] [0] [0] 1
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf

class Facts : Prop extends Facts₀ where

variable [Facts]
-- ==== Proof.LibWrittenRefs.lean ====
/-
  A straight line of host operations each of which writes exactly one buffer: when the buffers written, in order,
  are the references of a list `W`, a reference outside `W` is written by no operation of the line, and so keeps its
  contents across the line. The hypothesis is one equation between two lists (the operations' written sets against the
  singletons of `W`), which for a literal line holds by unfolding; membership in `W` is then decided over references alone.
-/
import Idealize.ShloMosaic.Lib.StableHlo.Run

namespace Idealize.ShloMosaic.StableHlo

variable {τ : Topo} {sig : RefSig} {Val : EltTy → Type}

/-- Every operation of a line whose written sets are, in order, the singletons of the references `W` writes only
    references of `W`. -/
theorem writes_sub_of_map_eq :
    ∀ (ops : List (HloOp τ sig Val)) (W : List (Ref sig .tc)),
      ops.map (fun op => op.writes) = W.map (fun r => ({Proc.devRef (τ := τ) .tc r} : Finset (DevRef τ sig))) →
      ∀ op ∈ ops, op.writes ⊆ (W.map (Proc.devRef (τ := τ) .tc)).toFinset
  | [], _, _ => fun _ hop => nomatch hop
  | _ :: _, [], h => nomatch h
  | o :: os, r :: W', h => by
    simp only [List.map_cons, List.cons.injEq] at h
    intro op hop
    rcases List.mem_cons.mp hop with rfl | hop
    · rw [h.1]
      intro b hb
      rw [Finset.mem_singleton] at hb
      subst hb
      exact List.mem_toFinset.mpr (List.mem_map.mpr ⟨r, List.mem_cons_self, rfl⟩)
    · refine (writes_sub_of_map_eq os W' h.2 op hop).trans fun b hb => ?_
      obtain ⟨y, hy, he⟩ := List.mem_map.mp (List.mem_toFinset.mp hb)
      exact List.mem_toFinset.mpr (List.mem_map.mpr ⟨y, List.mem_cons_of_mem _ hy, he⟩)

/-- No operation of such a line writes a reference outside `W`. -/
theorem not_mem_writes_of_map_eq {ops : List (HloOp τ sig Val)} {W : List (Ref sig .tc)}
    (h : ops.map (fun op => op.writes) = W.map (fun r => ({Proc.devRef (τ := τ) .tc r} : Finset (DevRef τ sig))))
    {r : Ref sig .tc} (hr : r ∉ W) {op : HloOp τ sig Val} (hop : op ∈ ops) : Proc.devRef (τ := τ) .tc r ∉ op.writes := fun hw => by
  obtain ⟨y, hy, he⟩ := List.mem_map.mp (List.mem_toFinset.mp (writes_sub_of_map_eq ops W h op hop hw))
  exact hr (Proc.devRef_injective _ he ▸ hy)

/-- A reference outside `W` holds after such a line what it held before it. -/
theorem after_of_map_writes_eq {ops : List (HloOp τ sig Val)} {W : List (Ref sig .tc)}
    (h : ops.map (fun op => op.writes) = W.map (fun r => ({Proc.devRef (τ := τ) .tc r} : Finset (DevRef τ sig))))
    (V : Valuation τ sig Val) {r : Ref sig .tc} (hr : r ∉ W) :
    after ops V (Proc.devRef .tc r) = V (Proc.devRef .tc r) :=
  after_of_forall_not_mem ops V fun _ hop => not_mem_writes_of_map_eq h hr hop

end Idealize.ShloMosaic.StableHlo
-- ==== Proof.KernelFrame.lean ====
/-
  The run of the program around its one kernel launch, and the frame read off it.

  The program is four index-preparing host operations, the launch, and a straight line of host operations after it.
  The launch walks 25 grid points; at point t the body reads rows 2000·t … 2000·t + 1999 of the first operand and the
  whole 256 × 256 second operand, and stores their matrix product into the same rows of the result array. Nothing is
  kept between points. The host operations after the launch write only their own result buffers, never an argument and
  never the result array of the launch, so the arguments end as they started.
-/
import proofs.«144551_j7060926234637_2_alg».proof.Proof.Gen.Kernel.Launch
import proofs.«144551_j7060926234637_2_alg».proof.Proof.Gen.Kernel.Skeleton
import proofs.«144551_j7060926234637_2_alg».proof.Proof.Gen.Kernel.Points
import proofs.«144551_j7060926234637_2_alg».proof.Proof.LibWrittenRefs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- The buffer contents on core `c` when the launch is entered: the memory the program starts from, after the four
    host operations that slice the index array into its two rows. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- The host operations after the launch, stretch by stretch. -/
abbrev tailOps : List (List (HloOp τ sig (Elt F))) := [hostOps1, hostOps1_1, hostOps1_2, hostOps1_3, hostOps1_4]

/-! ## The blocks the body is handed -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole 2000 × 256 staging buffer as one rectangle. -/
abbrev rOut : Rect S2000x256 := Rect.unit (s := S2000x256) ![0, 0] S2000x256.size inb_S2000x256_S2000x256_0_0
/-- The whole 256 × 256 staging buffer as one rectangle. -/
abbrev rW : Rect S256x256 := Rect.unit (s := S256x256) ![0, 0] S256x256.size inb_S256x256_S256x256_0_0

/-- What the body leaves in the result window's staging buffer: its one store, of the product of the row block `x0`
    with the second operand `x1`, covering the buffer. -/
def out0_2 (x0 : Vec F S2000x256 .f32) (x1 : Vec F S256x256 .f32) : Vec F S2000x256 .f32 :=
  View.canon [⟨rOut, k0_pay1 (View.ld x0 rOut) (View.ld x1 rW)⟩]

/-! ## The proof data of the launch -/

/-- On core `c`: the arrays as the launch finds them; after the body at point `t` each operand's buffer still at its
    block and the result's at the product of the two blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-! ## The buffers the host operations write

Each host operation writes exactly one buffer, its result. Listing the results stretch by stretch turns "this operation
does not write that buffer" into membership in a list of references, which is decided. -/

/-- The four operations before the launch write the two index rows, each sliced and then flattened. -/
abbrev wr0 : List (Ref sig .tc) := [main_v0, main_v1, main_v2, main_v3]
/-- The results of the first stretch after the launch: a per-node sum of gathered weights, its sign test and reciprocal. -/
abbrev wr1 : List (Ref sig .tc) :=
  [main_c, main_v5, main_v6, main_c_0, main_v7, main_v8, main_v9, main_v10, main_v11, main_cst, main_v12, main_v13, main_v14,
   main_cst_1, main_v15, main_v16, main_cst_2, main_v17, main_v18, main_cst_3]
/-- The first guarded reciprocal. -/
abbrev wr1_1 : List (Ref sig .tc) := [main_call0_v0, main_call0_v1, main_v19]
/-- Every hyperedge's count of incidences, its sign test and reciprocal. -/
abbrev wr1_2 : List (Ref sig .tc) :=
  [main_cst_4, main_v20, main_cst_5, main_v21, main_v22, main_v23, main_cst_6, main_v24, main_v25, main_cst_7, main_v26, main_v27,
   main_cst_8]
/-- The second guarded reciprocal. -/
abbrev wr1_3 : List (Ref sig .tc) := [main_call1_v0, main_call1_v1, main_v28]
/-- The two rounds of gather, scatter-add and row scaling over the launch's result, and the bias added at the end. -/
abbrev wr1_4 : List (Ref sig .tc) :=
  [main_c_9, main_v29, main_v30, main_c_10, main_v31, main_v32, main_v33, main_v34, main_v35, main_cst_11, main_v36, main_v37,
   main_v38, main_v39, main_v40, main_v41, main_c_12, main_v42, main_v43, main_c_13, main_v44, main_v45, main_v46, main_v47,
   main_v48, main_cst_14, main_v49, main_v50, main_v51, main_v52, main_v53, main_v54, main_v55, main_v56, main_v57]
/-- Everything written after the launch, in order. -/
abbrev wrTail : List (Ref sig .tc) := List.flatten [wr1, wr1_1, wr1_2, wr1_3, wr1_4]

/-- The operations before the launch write the buffers of wr0, one each, in order. -/
theorem writes0 : (List.flatten [hostOps0 (F := F)]).map (fun op => op.writes) = wr0.map fun r => ({Proc.devRef (τ := τ) .tc r} : Finset (DevRef τ sig)) := rfl
/-- Each stretch after the launch writes the buffers of its list, one each, in order. -/
theorem writes1 : (hostOps1 (F := F)).map (fun op => op.writes) = wr1.map fun r => ({Proc.devRef (τ := τ) .tc r} : Finset (DevRef τ sig)) := rfl
theorem writes1_1 : (hostOps1_1 (F := F)).map (fun op => op.writes) = wr1_1.map fun r => ({Proc.devRef (τ := τ) .tc r} : Finset (DevRef τ sig)) := rfl
theorem writes1_2 : (hostOps1_2 (F := F)).map (fun op => op.writes) = wr1_2.map fun r => ({Proc.devRef (τ := τ) .tc r} : Finset (DevRef τ sig)) := rfl
theorem writes1_3 : (hostOps1_3 (F := F)).map (fun op => op.writes) = wr1_3.map fun r => ({Proc.devRef (τ := τ) .tc r} : Finset (DevRef τ sig)) := rfl
theorem writes1_4 : (hostOps1_4 (F := F)).map (fun op => op.writes) = wr1_4.map fun r => ({Proc.devRef (τ := τ) .tc r} : Finset (DevRef τ sig)) := rfl

/-- The operations after the launch, read as one line, write the buffers of wrTail: the five equations appended. -/
theorem writesTail : ((tailOps (F := F)).flatten).map (fun op => op.writes) = wrTail.map fun r => ({Proc.devRef (τ := τ) .tc r} : Finset (DevRef τ sig)) := by
  show (hostOps1 ++ (hostOps1_1 ++ (hostOps1_2 ++ (hostOps1_3 ++ (hostOps1_4 ++ []))))).map _ = (wr1 ++ (wr1_1 ++ (wr1_2 ++ (wr1_3 ++ (wr1_4 ++ []))))).map _
  rw [List.map_append, List.map_append, List.map_append, List.map_append, List.map_append, List.map_append, List.map_append, List.map_append,
    List.map_append, List.map_append, writes1, writes1_1, writes1_2, writes1_3, writes1_4]
  rfl

/-- A reference outside wrTail is written by no operation after the launch. -/
theorem tail_not_written {r : Ref sig .tc} (hr : r ∉ wrTail) :
    ∀ ops ∈ (tailOps (F := F)), ∀ op ∈ ops, Proc.devRef (τ := τ) .tc r ∉ op.writes :=
  fun ops hops op hop => StableHlo.not_mem_writes_of_map_eq writesTail hr (List.mem_flatten.mpr ⟨ops, hops, hop⟩)

/-- The three arrays of the launch (the two operands and the result) are none of the buffers written after it. -/
theorem arr_not_in_tail : ∀ w, Pipeline.arrRef spec0 w ∉ wrTail := by decide

/-! ## The program around the launch, for the library -/

/-- No host operation allocates: each writes a buffer the program already names. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program is its first four operations, the launch, and then the later stretches: holding the unscoped buffers at the
    starting memory it reduces to the launch continued by those stretches, holding them at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later operations touch unscoped buffers only, and with nothing prefetched every unscoped buffer is an array of the
    launch or a buffer that bypasses it. -/
theorem tail_sub : ∀ ops ∈ (tailOps (F := F)), ∀ op ∈ ops, op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem tail_fresh : ∀ ops ∈ (tailOps (F := F)), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- And none of them writes an array of the launch: each writes its own result, and no result is an operand or the
    launch's result array. -/
theorem tail_keeps : ∀ ops ∈ (tailOps (F := F)), ∀ op ∈ ops, ∀ w, Proc.devRef .tc (Pipeline.arrRef spec0 w) ∉ op.writes :=
  fun ops hops op hop w => tail_not_written (arr_not_in_tail w) ops hops op hop

/-- A buffer the first four operations do not write is found by the launch as the program started with it. -/
theorem V_of_not_written (c : Dev nD) {r : Ref sig .tc} (hr : r ∉ wr0) : V m c r = m ((c : Thread nD τ).loc r) :=
  StableHlo.after_of_map_writes_eq writes0 _ hr

/-- A buffer that is no array of the launch and is written neither before nor after it ends as the program started with it. -/
theorem tail_of_not_written (dats : (p : Fin _) → (c : Dev nD) → Dat τ (Elt F) Unit ℕ (UR sig nD τ) ℕ (cfgs p) c) (c : Dev nD)
    {r : Ref sig .tc} (hr : r ∉ wrTail) (ha : ∀ w, Pipeline.arrRef spec0 w ≠ r) (h0 : r ∉ wr0) :
    Pipeline.afterTail₀ cfgs dats 0 (V0 m) tailOps c r = m ((c : Thread nD τ).loc r) := by
  unfold Pipeline.afterTail₀
  rw [StableHlo.after_of_map_writes_eq writesTail _ hr, Pipeline.withArrays_of_ne _ c (V0 m c) _ r ha]
  exact V_of_not_written m c h0

/-! ## What the body is handed -/

/-- The first operand's staging buffer holds its row block at every point: it is fetched at every point. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- The second operand's single staging buffer holds the whole operand at every point: fetched once at the first point,
    and the body leaves it in place, so every later point finds what the first fetched. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-! ## The body -/

/-- The one store is of the whole buffer, so it covers it. -/
theorem cover0_2 (p0 : Vec F S2000x256 .f32) (y : S2000x256.Idx) :
    ∃ pc ∈ ([⟨rOut, p0⟩] : List (View.Piece (Elt F) S2000x256 .f32)), y ∈ pc.1.set :=
  View.cover_of_tiled [⟨rOut, p0⟩] S2000x256.size (by rfl) y

set_option maxHeartbeats 1000000 in
/-- The body on whole staging buffers, the operands' at contents x0, x1 and the result's at anything: it reads the
    three buffers whole (the third read is of a value it never uses), stores the product over the whole third buffer, and
    returns with the operands' buffers unchanged and the result's at the product of x0 and x1. -/
theorem sound_kernel (c : Dev nD) (E : Set ℕ) (i : grid0.Coords)
    (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point t: the launch's invariant, what the core owes, and the three current staging
    buffers at what the pipeline put in them, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the same with the buffers at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the operands' buffers hold their blocks, so the triple above applies; the invariant and what the
    core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; at the end each array of the launch holds
    what the proof data computes (an operand its contents at entry, the result the blocks the body left), and every
    other buffer what the host operations after the launch leave in it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The five argument arrays end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  -- the two operands are arrays of the launch: an operand's array ends at its contents on entry, which the first four
  -- operations left alone; the other three arguments bypass the launch and no later operation writes them
  (θ_run defs _ _).mono (fun _ h c =>
    ⟨((h c).1 0).trans (((dats m 0 c).arrAt_in 0 rfl _).trans ((A_eq m c 0).trans (V_of_not_written m c (by decide)))),
     ((h c).2 main_arg1 (Pipeline.mem_restRefs_of main_arg1 (by decide) (by decide))).trans
       (tail_of_not_written m (dats m) c (by decide) (by decide) (by decide)),
     ((h c).2 main_arg2 (Pipeline.mem_restRefs_of main_arg2 (by decide) (by decide))).trans
       (tail_of_not_written m (dats m) c (by decide) (by decide) (by decide)),
     ((h c).1 1).trans (((dats m 0 c).arrAt_in 1 rfl _).trans ((A_eq m c 1).trans (V_of_not_written m c (by decide)))),
     ((h c).2 main_arg4 (Pipeline.mem_restRefs_of main_arg4 (by decide) (by decide))).trans
       (tail_of_not_written m (dats m) c (by decide) (by decide) (by decide))⟩) (run_main m ρ)

end Cert.Kernel.Frame

end
-- ==== Proof.KernelIdealFrame.lean ====
/-
  The run of the program around its one kernel launch, and the frame read off it.

  The program is four index-preparing host operations, the launch, and a straight line of host operations after it.
  The launch walks 25 grid points; at point t the body reads rows 2000·t … 2000·t + 1999 of the first operand and the
  whole 256 × 256 second operand, and stores their matrix product into the same rows of the result array. Nothing is
  kept between points. The host operations after the launch write only their own result buffers, never an argument and
  never the result array of the launch, so the arguments end as they started.
-/
import proofs.«144551_j7060926234637_2_alg».proof.Proof.Gen.KernelIdeal.Launch
import proofs.«144551_j7060926234637_2_alg».proof.Proof.Gen.KernelIdeal.Skeleton
import proofs.«144551_j7060926234637_2_alg».proof.Proof.Gen.KernelIdeal.Points
import proofs.«144551_j7060926234637_2_alg».proof.Proof.LibWrittenRefs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- The buffer contents on core `c` when the launch is entered: the memory the program starts from, after the four
    host operations that slice the index array into its two rows. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- The host operations after the launch, stretch by stretch. -/
abbrev tailOps : List (List (HloOp τ sig (Elt F))) := [hostOps1, hostOps1_1, hostOps1_2, hostOps1_3, hostOps1_4]

/-! ## The blocks the body is handed -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole 2000 × 256 staging buffer as one rectangle. -/
abbrev rOut : Rect S2000x256 := Rect.unit (s := S2000x256) ![0, 0] S2000x256.size inb_S2000x256_S2000x256_0_0
/-- The whole 256 × 256 staging buffer as one rectangle. -/
abbrev rW : Rect S256x256 := Rect.unit (s := S256x256) ![0, 0] S256x256.size inb_S256x256_S256x256_0_0

/-- What the body leaves in the result window's staging buffer: its one store, of the product of the row block `x0`
    with the second operand `x1`, covering the buffer. -/
def out0_2 (x0 : Vec F S2000x256 .f32) (x1 : Vec F S256x256 .f32) : Vec F S2000x256 .f32 :=
  View.canon [⟨rOut, k0_pay1 (View.ld x0 rOut) (View.ld x1 rW)⟩]

/-! ## The proof data of the launch -/

/-- On core `c`: the arrays as the launch finds them; after the body at point `t` each operand's buffer still at its
    block and the result's at the product of the two blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-! ## The buffers the host operations write

Each host operation writes exactly one buffer, its result. Listing the results stretch by stretch turns "this operation
does not write that buffer" into membership in a list of references, which is decided. -/

/-- The four operations before the launch write the two index rows, each sliced and then flattened. -/
abbrev wr0 : List (Ref sig .tc) := [main_v0, main_v1, main_v2, main_v3]
/-- The results of the first stretch after the launch: a per-node sum of gathered weights, its sign test and reciprocal. -/
abbrev wr1 : List (Ref sig .tc) :=
  [main_c, main_v5, main_v6, main_c_0, main_v7, main_v8, main_v9, main_v10, main_v11, main_cst, main_v12, main_v13, main_v14,
   main_cst_1, main_v15, main_v16, main_cst_2, main_v17, main_v18, main_cst_3]
/-- The first guarded reciprocal. -/
abbrev wr1_1 : List (Ref sig .tc) := [main_call0_v0, main_call0_v1, main_v19]
/-- Every hyperedge's count of incidences, its sign test and reciprocal. -/
abbrev wr1_2 : List (Ref sig .tc) :=
  [main_cst_4, main_v20, main_cst_5, main_v21, main_v22, main_v23, main_cst_6, main_v24, main_v25, main_cst_7, main_v26, main_v27,
   main_cst_8]
/-- The second guarded reciprocal. -/
abbrev wr1_3 : List (Ref sig .tc) := [main_call1_v0, main_call1_v1, main_v28]
/-- The two rounds of gather, scatter-add and row scaling over the launch's result, and the bias added at the end. -/
abbrev wr1_4 : List (Ref sig .tc) :=
  [main_c_9, main_v29, main_v30, main_c_10, main_v31, main_v32, main_v33, main_v34, main_v35, main_cst_11, main_v36, main_v37,
   main_v38, main_v39, main_v40, main_v41, main_c_12, main_v42, main_v43, main_c_13, main_v44, main_v45, main_v46, main_v47,
   main_v48, main_cst_14, main_v49, main_v50, main_v51, main_v52, main_v53, main_v54, main_v55, main_v56, main_v57]
/-- Everything written after the launch, in order. -/
abbrev wrTail : List (Ref sig .tc) := List.flatten [wr1, wr1_1, wr1_2, wr1_3, wr1_4]

/-- The operations before the launch write the buffers of wr0, one each, in order. -/
theorem writes0 : (List.flatten [hostOps0 (F := F)]).map (fun op => op.writes) = wr0.map fun r => ({Proc.devRef (τ := τ) .tc r} : Finset (DevRef τ sig)) := rfl
/-- Each stretch after the launch writes the buffers of its list, one each, in order. -/
theorem writes1 : (hostOps1 (F := F)).map (fun op => op.writes) = wr1.map fun r => ({Proc.devRef (τ := τ) .tc r} : Finset (DevRef τ sig)) := rfl
theorem writes1_1 : (hostOps1_1 (F := F)).map (fun op => op.writes) = wr1_1.map fun r => ({Proc.devRef (τ := τ) .tc r} : Finset (DevRef τ sig)) := rfl
theorem writes1_2 : (hostOps1_2 (F := F)).map (fun op => op.writes) = wr1_2.map fun r => ({Proc.devRef (τ := τ) .tc r} : Finset (DevRef τ sig)) := rfl
theorem writes1_3 : (hostOps1_3 (F := F)).map (fun op => op.writes) = wr1_3.map fun r => ({Proc.devRef (τ := τ) .tc r} : Finset (DevRef τ sig)) := rfl
theorem writes1_4 : (hostOps1_4 (F := F)).map (fun op => op.writes) = wr1_4.map fun r => ({Proc.devRef (τ := τ) .tc r} : Finset (DevRef τ sig)) := rfl

/-- The operations after the launch, read as one line, write the buffers of wrTail: the five equations appended. -/
theorem writesTail : ((tailOps (F := F)).flatten).map (fun op => op.writes) = wrTail.map fun r => ({Proc.devRef (τ := τ) .tc r} : Finset (DevRef τ sig)) := by
  show (hostOps1 ++ (hostOps1_1 ++ (hostOps1_2 ++ (hostOps1_3 ++ (hostOps1_4 ++ []))))).map _ = (wr1 ++ (wr1_1 ++ (wr1_2 ++ (wr1_3 ++ (wr1_4 ++ []))))).map _
  rw [List.map_append, List.map_append, List.map_append, List.map_append, List.map_append, List.map_append, List.map_append, List.map_append,
    List.map_append, List.map_append, writes1, writes1_1, writes1_2, writes1_3, writes1_4]
  rfl

/-- A reference outside wrTail is written by no operation after the launch. -/
theorem tail_not_written {r : Ref sig .tc} (hr : r ∉ wrTail) :
    ∀ ops ∈ (tailOps (F := F)), ∀ op ∈ ops, Proc.devRef (τ := τ) .tc r ∉ op.writes :=
  fun ops hops op hop => StableHlo.not_mem_writes_of_map_eq writesTail hr (List.mem_flatten.mpr ⟨ops, hops, hop⟩)

/-- The three arrays of the launch (the two operands and the result) are none of the buffers written after it. -/
theorem arr_not_in_tail : ∀ w, Pipeline.arrRef spec0 w ∉ wrTail := by decide

/-! ## The program around the launch, for the library -/

/-- No host operation allocates: each writes a buffer the program already names. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program is its first four operations, the launch, and then the later stretches: holding the unscoped buffers at the
    starting memory it reduces to the launch continued by those stretches, holding them at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later operations touch unscoped buffers only, and with nothing prefetched every unscoped buffer is an array of the
    launch or a buffer that bypasses it. -/
theorem tail_sub : ∀ ops ∈ (tailOps (F := F)), ∀ op ∈ ops, op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem tail_fresh : ∀ ops ∈ (tailOps (F := F)), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- And none of them writes an array of the launch: each writes its own result, and no result is an operand or the
    launch's result array. -/
theorem tail_keeps : ∀ ops ∈ (tailOps (F := F)), ∀ op ∈ ops, ∀ w, Proc.devRef .tc (Pipeline.arrRef spec0 w) ∉ op.writes :=
  fun ops hops op hop w => tail_not_written (arr_not_in_tail w) ops hops op hop

/-- A buffer the first four operations do not write is found by the launch as the program started with it. -/
theorem V_of_not_written (c : Dev nD) {r : Ref sig .tc} (hr : r ∉ wr0) : V m c r = m ((c : Thread nD τ).loc r) :=
  StableHlo.after_of_map_writes_eq writes0 _ hr

/-- A buffer that is no array of the launch and is written neither before nor after it ends as the program started with it. -/
theorem tail_of_not_written (dats : (p : Fin _) → (c : Dev nD) → Dat τ (Elt F) Unit ℕ (UR sig nD τ) ℕ (cfgs p) c) (c : Dev nD)
    {r : Ref sig .tc} (hr : r ∉ wrTail) (ha : ∀ w, Pipeline.arrRef spec0 w ≠ r) (h0 : r ∉ wr0) :
    Pipeline.afterTail₀ cfgs dats 0 (V0 m) tailOps c r = m ((c : Thread nD τ).loc r) := by
  unfold Pipeline.afterTail₀
  rw [StableHlo.after_of_map_writes_eq writesTail _ hr, Pipeline.withArrays_of_ne _ c (V0 m c) _ r ha]
  exact V_of_not_written m c h0

/-! ## What the body is handed -/

/-- The first operand's staging buffer holds its row block at every point: it is fetched at every point. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- The second operand's single staging buffer holds the whole operand at every point: fetched once at the first point,
    and the body leaves it in place, so every later point finds what the first fetched. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-! ## The body -/

/-- The one store is of the whole buffer, so it covers it. -/
theorem cover0_2 (p0 : Vec F S2000x256 .f32) (y : S2000x256.Idx) :
    ∃ pc ∈ ([⟨rOut, p0⟩] : List (View.Piece (Elt F) S2000x256 .f32)), y ∈ pc.1.set :=
  View.cover_of_tiled [⟨rOut, p0⟩] S2000x256.size (by rfl) y

set_option maxHeartbeats 1000000 in
/-- The body on whole staging buffers, the operands' at contents x0, x1 and the result's at anything: it reads the
    three buffers whole (the third read is of a value it never uses), stores the product over the whole third buffer, and
    returns with the operands' buffers unchanged and the result's at the product of x0 and x1. -/
theorem sound_kernel (c : Dev nD) (E : Set ℕ) (i : grid0.Coords)
    (arg1 : Memref sig .tc .vmem S2000x256 .f32) (harg1 : arg1.IsWhole) (arg2 : Memref sig .tc .vmem S256x256 .f32) (harg2 : arg2.IsWhole)
    (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point t: the launch's invariant, what the core owes, and the three current staging
    buffers at what the pipeline put in them, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the same with the buffers at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the operands' buffers hold their blocks, so the triple above applies; the invariant and what the
    core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; at the end each array of the launch holds
    what the proof data computes (an operand its contents at entry, the result the blocks the body left), and every
    other buffer what the host operations after the launch leave in it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The five argument arrays end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  -- the two operands are arrays of the launch: an operand's array ends at its contents on entry, which the first four
  -- operations left alone; the other three arguments bypass the launch and no later operation writes them
  (θ_run defs _ _).mono (fun _ h c =>
    ⟨((h c).1 0).trans (((dats m 0 c).arrAt_in 0 rfl _).trans ((A_eq m c 0).trans (V_of_not_written m c (by decide)))),
     ((h c).2 main_arg1 (Pipeline.mem_restRefs_of main_arg1 (by decide) (by decide))).trans
       (tail_of_not_written m (dats m) c (by decide) (by decide) (by decide)),
     ((h c).2 main_arg2 (Pipeline.mem_restRefs_of main_arg2 (by decide) (by decide))).trans
       (tail_of_not_written m (dats m) c (by decide) (by decide) (by decide)),
     ((h c).1 1).trans (((dats m 0 c).arrAt_in 1 rfl _).trans ((A_eq m c 1).trans (V_of_not_written m c (by decide)))),
     ((h c).2 main_arg4 (Pipeline.mem_restRefs_of main_arg4 (by decide) (by decide))).trans
       (tail_of_not_written m (dats m) c (by decide) (by decide) (by decide))⟩) (run_main m ρ)

end Cert.KernelIdeal.Frame

end
-- ==== Proof.LibRowGather.lean ====
/-
  Rows of a matrix taken and added by an index column, read at an entry.

  `x[idx]` of a matrix `x : [N, C]` at an integer column `idx : [R, 1]` lowers to a gather with offset axis 1, collapsed
  slice axis 0, start index map `[0]`, index vector axis 1 and slice sizes `[1, C]`: result entry `(e, f)` is `x` at row
  `idx[e, 0]`, read as a signed integer and clamped into `[0, N − 1]`, column `f` (`rowGather_apply`); for a vector
  `x : [N]` the same with no offset axis (`vecGather_apply`). The accumulating scatter with update window axis 1,
  inserted window axis 0, scatter-dims-to-operand-dims `[0]` and index vector axis 1 adds update row `e` onto row
  `idx[e, 0]`, read signed and NOT clamped, of an `[N, C]` operand, and drops it when that row is outside: an update
  entry `(e, f)` lands on operand entry `i` only if `idx[e, 0]` is the row of `i` (`rowScatter_row_of_hit`).
-/
import Idealize.ShloMosaic.Lib.ValueIdx

noncomputable section

namespace Cert.Lib.Rows

open Idealize.ShloMosaic Idealize.ShloMosaic.ValueIdx

section Gather
variable {α : Type}

/-- The dimension numbers of taking rows of an `[N, C]` matrix at an index column `[R, 1]`. -/
abbrev rowGatherDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N − 1]`. -/
def clampRow {w : Nat} (N : Nat) (hN : 0 < N) (v : BitVec w) : Fin N := ⟨min v.toInt.toNat (N - 1), by omega⟩

/-- Rows taken from a matrix, at entry `(e, f)`: the matrix at the clamped row `idx[e, 0]`, column `f`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowGatherDims N R C wf) x idx (ix2 e f) = x (ix2 (clampRow N hN (idx (ix2 e 0))) f) := by
  unfold Host.gather
  congr 1
  funext a
  refine Fin.ext ?_
  match a with
  | ⟨0, _⟩ =>
    show (rowGatherDims N R C wf).start (ix2 e f) idx 0 + (rowGatherDims N R C wf).batchCoord (ix2 e f) 0
      + (rowGatherDims N R C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e f) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e f) idx 1 + (rowGatherDims N R C wf).batchCoord (ix2 e f) 1
      + (rowGatherDims N R C wf).offCoord (ix2 e f) 1 = _
    rw [GatherDims.batchCoord_eq_zero _ _ _ List.not_mem_nil]
    unfold GatherDims.start
    rw [dif_neg (show ¬ (1 : Fin 2) ∈ ([0] : List (Fin 2)) by decide)]
    simp only [Nat.add_zero, Nat.zero_add]
    rfl

/-- The dimension numbers of taking entries of a vector `[N]` at an index column `[R, 1]`. -/
abbrev vecGatherDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entries taken from a vector, at `e`: the vector at the clamped `idx[e, 0]`. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (clampRow N hN (idx (ix2 e 0)))) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

section Scatter

/-- The dimension numbers of adding update rows `[R, C]` onto the rows of an `[N, C]` operand that an index column
    `[R, 1]` names. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update entry `(e, f)` that lands on operand entry `i` has its start index `idx[e, 0]`, read signed, equal to
    the row of `i`. -/
theorem rowScatter_row_of_hit {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowScatterDims N R C wf).resultIdx? j idx = some i) :
    (idx (ix2 (j 0) 0)).toInt = ((i 0).val : Int) := by
  unfold ScatterDims.resultIdx? at h
  split at h
  · rename_i hall
    have h0 := congrArg (fun k : (⟨2, ![N, C]⟩ : Shape).Idx => (k 0).val) (Option.some.inj h)
    have hpos := (hall 0).1
    have hst : (rowScatterDims N R C wf).start j idx 0 = (idx (ix2 (j 0) 0)).toInt := by
      unfold ScatterDims.start
      rw [dif_pos (show (0 : Fin 2) ∈ (rowScatterDims N R C wf).scatterDimsToOperandDims from List.mem_singleton.mpr rfl)]
      have hsi : (rowScatterDims N R C wf).siIdx j ⟨List.idxOf (0 : Fin 2) (rowScatterDims N R C wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      exact congrArg (fun k => (idx k).toInt) hsi
    have hw : (rowScatterDims N R C wf).window j 0 = 0 := by
      unfold ScatterDims.window
      rw [dif_neg (show ¬ (0 : Fin 2) ∈ (rowScatterDims N R C wf).sKept by simp [ScatterDims.sKept, Shape.kept])]
    simp only [hst, hw] at h0 hpos
    omega
  · exact absurd h (by simp)

end Scatter

end Cert.Lib.Rows

end
-- ==== Proof.LibEdgeAggregate.lean ====
/-
  A graph aggregation read at an entry: `agg[i, k] = Σ over edges e with dst[e] = i of x[src[e], k]`, on the extended
  reals.

  The aggregation is computed as rows of `x : [N, C]` taken at the edges' source column, then added onto the rows of a
  zero `[N, C]` array that the edges' destination column names. An accumulating row scatter of updates `[R, C]` at an
  index column `[R, 1]` lands update entry `(e, f)` on operand entry `(i, k)` exactly when `idx[e, 0]`, read signed, is
  `i` and `f = k` (`rowScatter_resultIdx_iff`); so its value at `(i, k)` is the operand there plus the sum over the update
  rows `e` of `upd[e, k]` where `idx[e, 0] = i` and `0` elsewhere (`rowScatterAdd_apply`).

  With 32-bit source and destination vectors `src, dst : [E]`, a negative source wrapped once by a constant `cN`
  (`wrapIdx`) and then clamped by the gather (`srcRow`), edge `e` adds `edge … i k e` to entry `(i, k)`: `x[srcRow e, k]`
  when `dst[e] = i`, else `0`. The aggregation over ALL edges at once is `0 + Σ_{e < E} edge e` (`whole_apply`); the
  aggregation over the `n` edges `o … o + n − 1`, their indices taken by a slice and the rows taken from a narrower-format
  copy of the matrix that is then widened (the identity on the extended reals), is `0 + Σ_{e < n} edge (o + e)` of the SAME
  per-edge function (`chunk_apply`), so that consecutive chunks add up to the whole.
-/
import Idealize.ShloMosaic.Lib.ValueIdx
import Idealize.ShloMosaic.Lib.Pipeline.Value
import Idealize.ShloMosaic.PureOps.Ideal.Laws
import proofs.«144551_j7060926234637_2_alg».proof.Proof.LibRowGather

noncomputable section

open scoped BigOperators

namespace Cert.Lib.EdgeAggregate

open Idealize.ShloMosaic Idealize.ShloMosaic.ValueIdx Cert.Lib.Rows

section Scatter

variable {N R C w : Nat} (wf : ScatterDims.WF ⟨2, ![N, C]⟩ ⟨2, ![R, 1]⟩ ⟨2, ![R, C]⟩ [1] [0] [0] 1)

/-- The window of update entry `(e, f)` starts, on the row axis, at `idx[e, 0]` read signed. -/
theorem rowScatter_start0 (idx : IVec ⟨2, ![R, 1]⟩ w) (j : (⟨2, ![R, C]⟩ : Shape).Idx) :
    (rowScatterDims N R C wf).start j idx 0 = (idx (ix2 (j 0) 0)).toInt := by
  unfold ScatterDims.start
  rw [dif_pos (show (0 : Fin 2) ∈ (rowScatterDims N R C wf).scatterDimsToOperandDims from List.mem_singleton.mpr rfl)]
  have hsi : (rowScatterDims N R C wf).siIdx j ⟨List.idxOf (0 : Fin 2) (rowScatterDims N R C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun k => (idx k).toInt) hsi

/-- … and, on the column axis, at `0`. -/
theorem rowScatter_start1 (idx : IVec ⟨2, ![R, 1]⟩ w) (j : (⟨2, ![R, C]⟩ : Shape).Idx) :
    (rowScatterDims N R C wf).start j idx 1 = 0 := by
  unfold ScatterDims.start
  rw [dif_neg (show ¬ (1 : Fin 2) ∈ ([0] : List (Fin 2)) by decide)]

/-- The window coordinate of an update entry on the row axis is `0` (the axis is inserted). -/
theorem rowScatter_window0 (j : (⟨2, ![R, C]⟩ : Shape).Idx) : (rowScatterDims N R C wf).window j 0 = 0 := by
  unfold ScatterDims.window
  rw [dif_neg (show ¬ (0 : Fin 2) ∈ (rowScatterDims N R C wf).sKept by simp [ScatterDims.sKept, Shape.kept])]

/-- The window coordinate of update entry `(e, f)` on the column axis is `f`. -/
theorem rowScatter_window1 (j : (⟨2, ![R, C]⟩ : Shape).Idx) : (rowScatterDims N R C wf).window j 1 = (j 1).val := by
  unfold ScatterDims.window
  have hk : (rowScatterDims N R C wf).sKept = [1] := rfl
  rw [dif_pos (show (1 : Fin 2) ∈ (rowScatterDims N R C wf).sKept by rw [hk]; exact List.mem_singleton.mpr rfl)]
  rfl

/-- Update entry `(e, f)` lands on operand entry `(i, k)` exactly when `idx[e, 0]`, read signed, is `i`, and `f = k`. -/
theorem rowScatter_resultIdx_iff (idx : IVec ⟨2, ![R, 1]⟩ w) (e : Fin R) (f : Fin C) (i : Fin N) (k : Fin C) :
    (rowScatterDims N R C wf).resultIdx? (ix2 e f) idx = some (ix2 i k)
      ↔ (idx (ix2 e 0)).toInt = (i.val : Int) ∧ f = k := by
  have hs0 := rowScatter_start0 wf idx (ix2 e f)
  have hs1 := rowScatter_start1 wf idx (ix2 e f)
  have hw0 := rowScatter_window0 wf (ix2 e f)
  have hw1 := rowScatter_window1 wf (ix2 e f)
  have he0 : (ix2 e f : (⟨2, ![R, C]⟩ : Shape).Idx) 0 = e := rfl
  have he1 : (ix2 e f : (⟨2, ![R, C]⟩ : Shape).Idx) 1 = f := rfl
  rw [he0] at hs0
  rw [he1] at hw1
  constructor
  · intro h
    unfold ScatterDims.resultIdx? at h
    split at h
    · rename_i hall
      have h0 := congrArg (fun q : (⟨2, ![N, C]⟩ : Shape).Idx => (q 0).val) (Option.some.inj h)
      have h1 := congrArg (fun q : (⟨2, ![N, C]⟩ : Shape).Idx => (q 1).val) (Option.some.inj h)
      have hpos := (hall 0).1
      simp only [hs0, hw0] at h0 hpos
      simp only [hs1, hw1] at h1
      refine ⟨?_, Fin.ext ?_⟩
      · have : ((ix2 i k : (⟨2, ![N, C]⟩ : Shape).Idx) 0).val = i.val := rfl
        omega
      · have : ((ix2 i k : (⟨2, ![N, C]⟩ : Shape).Idx) 1).val = k.val := rfl
        omega
    · exact absurd h (by simp)
  · rintro ⟨hi, rfl⟩
    unfold ScatterDims.resultIdx?
    have hall : ∀ a, 0 ≤ (rowScatterDims N R C wf).start (ix2 e f) idx a + (rowScatterDims N R C wf).window (ix2 e f) a ∧
        (rowScatterDims N R C wf).start (ix2 e f) idx a + (rowScatterDims N R C wf).window (ix2 e f) a
          < (⟨2, ![N, C]⟩ : Shape).size a := by
      intro a
      match a with
      | ⟨0, _⟩ =>
        show 0 ≤ (rowScatterDims N R C wf).start (ix2 e f) idx 0 + (rowScatterDims N R C wf).window (ix2 e f) 0 ∧
          (rowScatterDims N R C wf).start (ix2 e f) idx 0 + (rowScatterDims N R C wf).window (ix2 e f) 0 < (N : Int)
        rw [hs0, hw0, hi]
        have := i.isLt
        omega
      | ⟨1, _⟩ =>
        show 0 ≤ (rowScatterDims N R C wf).start (ix2 e f) idx 1 + (rowScatterDims N R C wf).window (ix2 e f) 1 ∧
          (rowScatterDims N R C wf).start (ix2 e f) idx 1 + (rowScatterDims N R C wf).window (ix2 e f) 1 < (C : Int)
        rw [hs1, hw1]
        have := f.isLt
        omega
    rw [dif_pos hall]
    congr 1
    funext a
    refine Fin.ext ?_
    match a with
    | ⟨0, _⟩ =>
      show ((rowScatterDims N R C wf).start (ix2 e f) idx 0 + (rowScatterDims N R C wf).window (ix2 e f) 0).toNat = i.val
      rw [hs0, hw0, hi]
      omega
    | ⟨1, _⟩ =>
      show ((rowScatterDims N R C wf).start (ix2 e f) idx 1 + (rowScatterDims N R C wf).window (ix2 e f) 1).toNat = f.val
      rw [hs1, hw1]
      omega

/-- THE ACCUMULATING ROW SCATTER READ AT `(i, k)`: the operand there plus, over the update rows `e`, `upd[e, k]` where
    `idx[e, 0]` read signed is `i`, and `0` where it is not (a row outside the operand is dropped). -/
theorem rowScatterAdd_apply {φ : FTy} (x : FVec Ideal ⟨2, ![N, C]⟩ φ) (idx : IVec ⟨2, ![R, 1]⟩ w)
    (upd : FVec Ideal ⟨2, ![R, C]⟩ φ) (i : Fin N) (k : Fin C) :
    Host.scatterAdd (rowScatterDims N R C wf) x idx upd (ix2 i k)
      = x (ix2 i k) + ∑ e : Fin R, if (idx (ix2 e 0)).toInt = (i.val : Int) then upd (ix2 e k) else 0 := by
  show Ideal.hostScatterAdd (rowScatterDims N R C wf) x idx upd (ix2 i k) = _
  unfold Ideal.hostScatterAdd
  congr 1
  rw [Finset.sum_filter, sum_idx2]
  refine Finset.sum_congr rfl fun e _ => ?_
  by_cases he : (idx (ix2 e 0)).toInt = (i.val : Int)
  · rw [if_pos he]
    have : ∀ f : Fin C, (if (rowScatterDims N R C wf).resultIdx? (ix2 e f) idx = some (ix2 i k) then upd (ix2 e f) else 0)
        = if f = k then upd (ix2 e f) else 0 := by
      intro f
      by_cases hf : f = k
      · rw [if_pos hf, if_pos ((rowScatter_resultIdx_iff wf idx e f i k).mpr ⟨he, hf⟩)]
      · rw [if_neg hf, if_neg (fun h => hf ((rowScatter_resultIdx_iff wf idx e f i k).mp h).2)]
    rw [Finset.sum_congr rfl fun f _ => this f]
    simp
  · rw [if_neg he]
    refine Finset.sum_eq_zero fun f _ => ?_
    rw [if_neg (fun h => he ((rowScatter_resultIdx_iff wf idx e f i k).mp h).1)]

end Scatter

/-! ## The aggregation at an entry, as a sum over edges of one per-edge function -/

section Edges

variable {N E C : Nat}

/-- An edge's source index with a negative value wrapped once by `cN`: `v + cN` if `v < 0` (signed), else `v`. -/
def wrapIdx (cN v : BitVec 32) : BitVec 32 := Scalar.select (IntOp.cmpi .slt v 0#32) (IntOp.addi v cN) v

/-- The row of `x` an edge's source index names: wrapped, then clamped into `[0, N − 1]`. -/
def srcRow (N : Nat) (hN : 0 < N) (cN v : BitVec 32) : Fin N := clampRow N hN (wrapIdx cN v)

/-- What edge `e` adds to entry `(i, k)` of the aggregation: `x` at the edge's source row, column `k`, when the edge's
    destination (read signed) is `i`; `0` otherwise. -/
def edge (hN : 0 < N) (cN : BitVec 32) (x : (⟨2, ![N, C]⟩ : Shape).Idx → EReal) (src dst : IVec ⟨1, ![E]⟩ 32)
    (i : Fin N) (k : Fin C) (e : Fin E) : EReal :=
  if (dst (ix1 e)).toInt = (i.val : Int) then x (ix2 (srcRow N hN cN (src (ix1 e))) k) else 0

/-- A vector `[R]` broadcast to a column `[R, 1]`, read at `(e, 0)`: the vector at `e`. -/
theorem col_apply {α : Type} {R : Nat} (hc : (⟨1, ![R]⟩ : Shape).BroadcastsInDim ⟨2, ![R, 1]⟩ ![0])
    (v : (⟨1, ![R]⟩ : Shape).Idx → α) (e : Fin R) (z : Fin 1) :
    broadcastInDim ⟨2, ![R, 1]⟩ ![0] hc v (ix2 e z) = v (ix1 e) := by
  refine broadcastInDim_apply _ hc v _ (ix1 e) fun a => ?_
  match a with
  | ⟨0, _⟩ =>
    show e.val = if R = 1 then 0 else e.val
    split
    · have := e.isLt; omega
    · rfl

/-- The wrapped source indices as the program computes them (compare with a broadcast `0`, add a broadcast `cN`,
    select), read at `e`. -/
theorem wrap_apply {R : Nat} (h0 : (⟨0, ![]⟩ : Shape).BroadcastsInDim ⟨1, ![R]⟩ ![]) (cN : BitVec 32)
    (s : IVec ⟨1, ![R]⟩ 32) (e : Fin R) :
    select (cmpi .slt s (broadcastInDim ⟨1, ![R]⟩ ![] h0 (constantI ⟨0, ![]⟩ 32 0#32)))
      (addi s (broadcastInDim ⟨1, ![R]⟩ ![] h0 (constantI ⟨0, ![]⟩ 32 cN))) s (ix1 e) = wrapIdx cN (s (ix1 e)) := rfl

/-- The zero `[N, C]` array the scatter accumulates into, at an entry: the extended real `0`. -/
theorem zeros_apply (hz : (⟨0, ![]⟩ : Shape).BroadcastsInDim ⟨2, ![N, C]⟩ ![]) (j : (⟨2, ![N, C]⟩ : Shape).Idx) :
    broadcastInDim ⟨2, ![N, C]⟩ ![] hz (constant (F := Ideal) ⟨0, ![]⟩ .f32 0x00000000#32) j = 0 :=
  Ideal.ofBits_zero_f32

/-- THE WHOLE FORM: rows of `x` taken at all `E` edges' wrapped sources and added onto zeros at their destinations, read
    at `(i, k)`, is `0` plus the sum over the edges of `edge`. -/
theorem whole_apply (hN : 0 < N) (cN : BitVec 32)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (h0 : (⟨0, ![]⟩ : Shape).BroadcastsInDim ⟨1, ![E]⟩ ![])
    (hc : (⟨1, ![E]⟩ : Shape).BroadcastsInDim ⟨2, ![E, 1]⟩ ![0])
    (hz : (⟨0, ![]⟩ : Shape).BroadcastsInDim ⟨2, ![N, C]⟩ ![])
    (x : FVec Ideal ⟨2, ![N, C]⟩ .f32) (src dst : IVec ⟨1, ![E]⟩ 32) (i : Fin N) (k : Fin C) :
    Host.scatterAdd (rowScatterDims N E C wfS)
        (broadcastInDim ⟨2, ![N, C]⟩ ![] hz (constant (F := Ideal) ⟨0, ![]⟩ .f32 0x00000000#32))
        (broadcastInDim ⟨2, ![E, 1]⟩ ![0] hc dst)
        (Host.gather (rowGatherDims N E C wfG) x
          (broadcastInDim ⟨2, ![E, 1]⟩ ![0] hc
            (select (cmpi .slt src (broadcastInDim ⟨1, ![E]⟩ ![] h0 (constantI ⟨0, ![]⟩ 32 0#32)))
              (addi src (broadcastInDim ⟨1, ![E]⟩ ![] h0 (constantI ⟨0, ![]⟩ 32 cN))) src)))
        (ix2 i k)
      = 0 + ∑ e : Fin E, edge hN cN x src dst i k e := by
  rw [rowScatterAdd_apply, zeros_apply]
  congr 1
  refine Finset.sum_congr rfl fun e _ => ?_
  rw [col_apply, rowGather_apply hN, col_apply, wrap_apply]
  rfl

/-- THE CHUNK FORM: the same for the `n` edges `o, …, o + n − 1`, their sources and destinations taken by a slice, the rows
    taken from a narrower-format copy of the matrix and widened: `0` plus the sum over the chunk's edges of the SAME
    `edge`, at edge `o + e`. -/
theorem chunk_apply {n o : Nat} (hN : 0 < N) (cN : BitVec 32)
    (wfG : GatherDims.WF ⟨2, ![N, C]⟩ ⟨2, ![n, 1]⟩ ⟨2, ![n, C]⟩ [1] [0] [] [0] [] 1 ![1, C])
    (wfS : ScatterDims.WF ⟨2, ![N, C]⟩ ⟨2, ![n, 1]⟩ ⟨2, ![n, C]⟩ [1] [0] [0] 1)
    (h0 : (⟨0, ![]⟩ : Shape).BroadcastsInDim ⟨1, ![n]⟩ ![])
    (hc : (⟨1, ![n]⟩ : Shape).BroadcastsInDim ⟨2, ![n, 1]⟩ ![0])
    (hz : (⟨0, ![]⟩ : Shape).BroadcastsInDim ⟨2, ![N, C]⟩ ![])
    (hsl : (⟨1, ![E]⟩ : Shape).Slices ![o] ⟨1, ![n]⟩) (ho : o + n ≤ E) (hbits : FTy.bf16.bits < FTy.f32.bits)
    (xb : FVec Ideal ⟨2, ![N, C]⟩ .bf16) (src dst : IVec ⟨1, ![E]⟩ 32) (i : Fin N) (k : Fin C) :
    Host.scatterAdd (rowScatterDims N n C wfS)
        (broadcastInDim ⟨2, ![N, C]⟩ ![] hz (constant (F := Ideal) ⟨0, ![]⟩ .f32 0x00000000#32))
        (broadcastInDim ⟨2, ![n, 1]⟩ ![0] hc (extractStridedSlice ⟨1, ![n]⟩ ![o] dst hsl))
        (extf .f32 (Host.gather (rowGatherDims N n C wfG) xb
          (broadcastInDim ⟨2, ![n, 1]⟩ ![0] hc
            (select (cmpi .slt (extractStridedSlice ⟨1, ![n]⟩ ![o] src hsl)
                (broadcastInDim ⟨1, ![n]⟩ ![] h0 (constantI ⟨0, ![]⟩ 32 0#32)))
              (addi (extractStridedSlice ⟨1, ![n]⟩ ![o] src hsl)
                (broadcastInDim ⟨1, ![n]⟩ ![] h0 (constantI ⟨0, ![]⟩ 32 cN)))
              (extractStridedSlice ⟨1, ![n]⟩ ![o] src hsl)))) hbits)
        (ix2 i k)
      = 0 + ∑ e : Fin n, edge hN cN xb src dst i k ⟨o + e.val, by omega⟩ := by
  rw [rowScatterAdd_apply, zeros_apply]
  congr 1
  refine Finset.sum_congr rfl fun e _ => ?_
  have hsl_apply : ∀ v : IVec ⟨1, ![E]⟩ 32,
      extractStridedSlice ⟨1, ![n]⟩ ![o] v hsl (ix1 e) = v (ix1 ⟨o + e.val, by omega⟩) := fun v =>
    extractStridedSlice_apply _ v hsl (ix1 e) (ix1 ⟨o + e.val, by omega⟩) fun a => by
      match a with
      | ⟨0, _⟩ => rfl
  rw [col_apply, extf_apply, rowGather_apply hN, col_apply, wrap_apply, hsl_apply, hsl_apply]
  rfl

end Edges

end Cert.Lib.EdgeAggregate

end
-- ==== Proof.LibWeightedQuotient.lean ====
/-
  A normalized weighted sum on the extended reals, taken in either order.

  For weights `w t`, values `v t` and a POSITIVE REAL normalizer `y`,
      (∑ t, w t * v t) / y  =  ∑ t, (w t / y) * v t
  holds for ARBITRARY extended-real weights and values: division by a nonzero real is multiplication by
  the real `1 / y`, and multiplication by a nonnegative real distributes over every sum of extended
  reals (the only sums it could break are `⊤ + ⊥`, which a positive factor maps to `⊤ + ⊥` again, and a
  zero factor to `0 + 0`). Nothing is asked of the weights or the values: no finiteness.

  Beside it, what makes the normalizer of a sigmoid attention such a positive real: `Ideal.logistic` of
  any extended real is a real number in `[0, 1]`, so a finite sum of logistics plus a positive real is a
  positive real.
-/
import Idealize.ShloMosaic.PureOps.Ideal

namespace Cert.Lib.WeightedQuotient

open Idealize.ShloMosaic

/-- The coercion `ℝ → EReal` commutes with a finite sum. -/
theorem coe_sum {ι : Type*} (s : Finset ι) (r : ι → ℝ) : (∑ i ∈ s, (r i : EReal)) = ((∑ i ∈ s, r i : ℝ) : EReal) := by
  classical
  induction s using Finset.induction_on with
  | empty => simp
  | insert i s hi ih => rw [Finset.sum_insert hi, Finset.sum_insert hi, ih, EReal.coe_add]

/-- A nonnegative extended real other than `⊤` multiplies into a finite sum term by term. -/
theorem sum_mul {ι : Type*} (s : Finset ι) (a : ι → EReal) {c : EReal} (h0 : 0 ≤ c) (ht : c ≠ ⊤) :
    (∑ i ∈ s, a i) * c = ∑ i ∈ s, a i * c := by
  classical
  induction s using Finset.induction_on with
  | empty => simp
  | insert i s hi ih =>
    rw [Finset.sum_insert hi, Finset.sum_insert hi, EReal.right_distrib_of_nonneg_of_ne_top h0 ht, ih]

/-- The quotient of a weighted sum by a positive real is the sum weighted by the quotients: the normalizer may
    be applied to the total or to each weight. -/
theorem div_sum {ι : Type*} [Fintype ι] (w v : ι → EReal) {y : ℝ} (hy : 0 < y) :
    Ideal.div (∑ t, w t * v t) (y : EReal) = ∑ t, Ideal.div (w t) (y : EReal) * v t := by
  have hc0 : (0 : EReal) ≤ ((1 / y : ℝ) : EReal) := by
    exact_mod_cast (one_div_pos.mpr hy).le
  have hct : ((1 / y : ℝ) : EReal) ≠ ⊤ := EReal.coe_ne_top _
  simp only [Ideal.div_coe hy.ne']
  rw [sum_mul _ _ hc0 hct]
  refine Finset.sum_congr rfl fun t _ => ?_
  rw [mul_assoc, mul_comm (v t), ← mul_assoc]

/-- The logistic function of any extended real — the infinities included: `⊥ ↦ 0`, `⊤ ↦ 1` — is a real number,
    and nonnegative. -/
theorem logistic_real (x : EReal) : ∃ r : ℝ, 0 ≤ r ∧ Ideal.logistic x = (r : EReal) := by
  induction x using EReal.rec with
  | bot => exact ⟨0, le_rfl, by rw [Ideal.logistic_bot, EReal.coe_zero]⟩
  | top => exact ⟨1, zero_le_one, by rw [Ideal.logistic_top, EReal.coe_one]⟩
  | coe r => exact ⟨(1 + Real.exp (-r))⁻¹, by positivity, Ideal.logistic_coe r⟩

/-- A finite sum of logistics plus a positive real is a positive real: the normalizer `∑ σ(s) + ε` of a
    sigmoid attention, whatever the scores. -/
theorem sum_logistic_add_pos {ι : Type*} [Fintype ι] (s : ι → EReal) {e : ℝ} (he : 0 < e) :
    ∃ y : ℝ, 0 < y ∧ (∑ t, Ideal.logistic (s t)) + (e : EReal) = (y : EReal) := by
  choose r hr0 hr using fun t => logistic_real (s t)
  refine ⟨(∑ t, r t) + e, add_pos_of_nonneg_of_pos (Finset.sum_nonneg fun t _ => hr0 t) he, ?_⟩
  simp only [hr]
  rw [coe_sum, EReal.coe_add]

/-- The f32 word `0x358637BD` (the float nearest `1e-6`) is the positive real `8796093 / 2^43`. -/
theorem ofBits_eps : ∃ e : ℝ, 0 < e ∧ Ideal.ofBits .f32 0x358637BD#32 = (e : EReal) := by
  refine ⟨8796093 * ((2 : ℝ) ^ 43)⁻¹, by positivity, ?_⟩
  simp [Ideal.ofBits, Ideal.ieee]

end Cert.Lib.WeightedQuotient
-- ==== Proof.HyperSpec.lean ====
/-
  Hypergraph convolution on the extended reals: the two ways of placing the two diagonal scalings.

  With 500000 incidences k, each naming a node n(k) and a hyperedge e(k) by 32-bit words, a node-indexed weight
  d ≥ 0 and a hyperedge-indexed weight b ≥ 0 (both never +∞), and node features x:
    * scaling AFTER each aggregation:  out[i] = d[i] · Σ_{k lands on node i} ( b[e(k)] · Σ_{k' lands on hyperedge e(k)} x[n(k')] );
    * scaling each message BEFORE it is added:  out[i] = Σ_{k lands on i} d[n(k)] · Σ_{k' lands on e(k)} b[e(k')] · x[n(k')].
  An incidence lands on the row its word names when that word, read signed, is a row number; then the row a gather
  takes for the same word (negative words wrapped once, then clamped) is that very row. So inside each sum the weight
  is constant, and a nonnegative weight other than +∞ moves across a finite sum of extended reals whatever the summands.
-/
import Idealize.ShloMosaic.Lib.ValueIdx
import Idealize.ShloMosaic.Lib.Pipeline.Value
import Idealize.ShloMosaic.PureOps.Ideal.Laws
import proofs.«144551_j7060926234637_2_alg».proof.Proof.LibEdgeAggregate
import proofs.«144551_j7060926234637_2_alg».proof.Proof.LibWeightedQuotient

noncomputable section

open scoped BigOperators

namespace Cert.Hyper

open Idealize.ShloMosaic Idealize.ShloMosaic.ValueIdx Cert.Lib.Rows Cert.Lib.EdgeAggregate Cert.Lib.WeightedQuotient

/-! ## The law on the extended reals -/

/-- The two placements of the scalings agree: `P e k` says incidence `k` lands on hyperedge `e`, `Q i k` that it lands
    on node `i`; `se k`, `sn k` are the rows a gather takes for `k`'s hyperedge and node words, which are the landing rows
    whenever `k` lands (`hP`, `hQ`). -/
theorem scale_after_eq_scale_before {ι : Type} [Fintype ι] {Ne Nn : Nat}
    (P : Fin Ne → ι → Prop) [∀ e k, Decidable (P e k)] (Q : Fin Nn → ι → Prop) [∀ i k, Decidable (Q i k)]
    (se : ι → Fin Ne) (sn : ι → Fin Nn) (hP : ∀ e k, P e k → se k = e) (hQ : ∀ i k, Q i k → sn k = i)
    (B : Fin Ne → EReal) (D : Fin Nn → EReal) (hB0 : ∀ e, 0 ≤ B e) (hBt : ∀ e, B e ≠ ⊤)
    (hD0 : ∀ i, 0 ≤ D i) (hDt : ∀ i, D i ≠ ⊤) (x : Fin Nn → EReal) (i : Fin Nn) :
    D i * (0 + ∑ k, if Q i k then B (se k) * (0 + ∑ k', if P (se k) k' then x (sn k') else 0) else 0)
      = 0 + ∑ k, if Q i k then D (sn k) * (0 + ∑ k', if P (se k) k' then B (se k') * x (sn k') else 0) else 0 := by
  have inner : ∀ e, (0 + ∑ k', if P e k' then B (se k') * x (sn k') else 0)
      = B e * (0 + ∑ k', if P e k' then x (sn k') else 0) := by
    intro e
    rw [zero_add, zero_add, mul_comm, sum_mul _ _ (hB0 e) (hBt e)]
    refine Finset.sum_congr rfl fun k' _ => ?_
    by_cases h : P e k'
    · rw [if_pos h, if_pos h, hP e k' h, mul_comm]
    · rw [if_neg h, if_neg h, zero_mul]
  rw [zero_add (∑ k, _), zero_add (∑ k, _), mul_comm, sum_mul _ _ (hD0 i) (hDt i)]
  refine Finset.sum_congr rfl fun k _ => ?_
  by_cases h : Q i k
  · rw [if_pos h, if_pos h, hQ i k h, inner, mul_comm]
  · rw [if_neg h, if_neg h, zero_mul]

/-- The reciprocal guarded against a non-positive denominator, `1/d` where `d > 0` and `0` elsewhere, is a
    nonnegative extended real other than `⊤`, for EVERY extended real `d`. -/
theorem guarded_recip_bounds (d : EReal) :
    0 ≤ Scalar.select (Ideal.cmp .ogt d 0) (Ideal.div 1 d) (0 : EReal)
      ∧ Scalar.select (Ideal.cmp .ogt d 0) (Ideal.div 1 d) (0 : EReal) ≠ ⊤ := by
  unfold Scalar.select Ideal.cmp
  by_cases h : (0 : EReal) < d
  · have hc : BitVec.ofBool (decide ((0 : EReal) < d)) = 1 := by simp [h]
    rw [if_pos hc]
    unfold Ideal.div
    rw [if_neg (ne_of_gt h), one_mul]
    induction d using EReal.rec with
    | bot => exact absurd h (by simp)
    | top => simp
    | coe r =>
      have hr : 0 < r := by exact_mod_cast h
      rw [← EReal.coe_inv]
      exact ⟨by exact_mod_cast (inv_pos.mpr hr).le, EReal.coe_ne_top _⟩
  · have hc : ¬ BitVec.ofBool (decide ((0 : EReal) < d)) = 1 := by simp [h]
    rw [if_neg hc]
    exact ⟨le_refl 0, EReal.zero_ne_top⟩

end Cert.Hyper

end
-- ==== Proof.HyperStages.lean ====
/-
  The stages of the two programs' host computations, as functions of arrays on the extended reals, and each read at an
  entry: the index preparation (a negative word wrapped once by 50000, a vector put on a column), the guarded
  reciprocal of a count or of a weighted degree, the aggregation of rows at the incidences (rows of a matrix taken at
  one column of words and added onto zeros at the other), the same with each row first scaled by a vector entry taken at
  a column of words, a vector repeated along the rows as a scaling, and the bias repeated down the rows.
-/
import proofs.«144551_j7060926234637_2_alg».proof.Proof.HyperSpec

noncomputable section

open scoped BigOperators

namespace Cert.Hyper

open Idealize.ShloMosaic Idealize.ShloMosaic.ValueIdx Cert.Lib.Rows Cert.Lib.EdgeAggregate Cert.Lib.WeightedQuotient

/-! ## Shapes and their side facts -/

abbrev S0 : Shape := ⟨0, ![]⟩
abbrev Sn : Shape := ⟨1, ![50000]⟩
abbrev Sk : Shape := ⟨1, ![500000]⟩
abbrev Sk1 : Shape := ⟨2, ![500000, 1]⟩
abbrev Sn1 : Shape := ⟨2, ![50000, 1]⟩
abbrev Snf : Shape := ⟨2, ![50000, 256]⟩
abbrev Skf : Shape := ⟨2, ![500000, 256]⟩
abbrev Sf : Shape := ⟨1, ![256]⟩
abbrev S1f : Shape := ⟨2, ![1, 256]⟩

theorem h0k : S0.BroadcastsInDim Sk (![] : Fin 0 → Fin Sk.rank) := by decide
theorem hck : Sk.BroadcastsInDim Sk1 (![0] : Fin 1 → Fin Sk1.rank) := by decide
theorem h0n : S0.BroadcastsInDim Sn (![] : Fin 0 → Fin Sn.rank) := by decide
theorem h0nf : S0.BroadcastsInDim Snf (![] : Fin 0 → Fin Snf.rank) := by decide
theorem hn1 : Sn.BroadcastsInDim Sn1 (![0] : Fin 1 → Fin Sn1.rank) := by decide
theorem hn1f : Sn1.BroadcastsInDim Snf (![0, 1] : Fin 2 → Fin Snf.rank) := by decide
theorem hk1f : Sk1.BroadcastsInDim Skf (![0, 1] : Fin 2 → Fin Skf.rank) := by decide
theorem hf1 : Sf.BroadcastsInDim S1f (![1] : Fin 1 → Fin S1f.rank) := by decide
theorem h1f : S1f.BroadcastsInDim Snf (![0, 1] : Fin 2 → Fin Snf.rank) := by decide
theorem wfGv : GatherDims.WF Sn Sk1 Sk [] [0] [] [0] [] 1 ![1] := by decide
theorem wfSv : ScatterDims.WF Sn Sk1 Sk [] [0] [0] 1 := by decide
theorem wfGm : GatherDims.WF Snf Sk1 Skf [1] [0] [] [0] [] 1 ![1, 256] := by decide
theorem wfSm : ScatterDims.WF Snf Sk1 Skf [1] [0] [0] 1 := by decide
theorem hN : 0 < 50000 := by decide

abbrev S2k : Shape := ⟨2, ![2, 500000]⟩
abbrev S1k : Shape := ⟨2, ![1, 500000]⟩
abbrev Sff : Shape := ⟨2, ![256, 256]⟩
theorem hsl0 : S2k.Slices ![0, 0] S1k := by decide
theorem hsl1 : S2k.Slices ![1, 0] S1k := by decide
theorem hsc : S1k.ShapeCasts Sk := by decide

/-! ## The stages -/

/-- The incidences' node words: row 0 of the index array. -/
def nodeWords (x1 : IVec S2k 32) : IVec Sk 32 := shapeCast Sk (extractStridedSlice S1k ![0, 0] x1 hsl0) hsc
/-- The incidences' hyperedge words: row 1 of the index array. -/
def edgeWords (x1 : IVec S2k 32) : IVec Sk 32 := shapeCast Sk (extractStridedSlice S1k ![1, 0] x1 hsl1) hsc

/-- The linear transform of the node features, one whole matrix product. -/
def product (x : FVec Ideal Snf .f32) (W : FVec Ideal Sff .f32) : FVec Ideal Snf .f32 :=
  Host.dotGeneral (DotDims.plain 50000 256 256) none x W

/-- A word read as a row number, a negative one wrapped once by 50000. -/
def wrapV (v : IVec Sk 32) : IVec Sk 32 :=
  select (cmpi .slt v (broadcastInDim Sk ![] h0k (constantI S0 32 0#32)))
    (addi v (broadcastInDim Sk ![] h0k (constantI S0 32 50000#32))) v

/-- A vector of words put on a column. -/
def colV {α : Type} (v : Sk.Idx → α) : Sk1.Idx → α := broadcastInDim Sk1 ![0] hck v

/-- Adding entries `[500000]` onto a vector `[50000]` at the rows a column of words names. -/
def vecScatterDims : ScatterDims Sn Sk1 Sk where
  updateWindowDims := []
  insertedWindowDims := [0]
  scatterDimsToOperandDims := [0]
  indexVectorDim := 1
  wf := wfSv

/-- The zero vector. -/
def zerosN : FVec Ideal Sn .f32 := broadcastInDim Sn ![] h0n (constant (F := Ideal) S0 .f32 0x00000000#32)
/-- The zero matrix. -/
def zerosNF : FVec Ideal Snf .f32 := broadcastInDim Snf ![] h0nf (constant (F := Ideal) S0 .f32 0x00000000#32)

/-- A node's weighted degree: the weights of the hyperedges of its incidences, summed. -/
def deg (node edge : IVec Sk 32) (w : FVec Ideal Sn .f32) : FVec Ideal Sn .f32 :=
  Host.scatterAdd vecScatterDims zerosN (colV node) (Host.gather (vecGatherDims 50000 500000 wfGv) w (colV (wrapV edge)))

/-- A hyperedge's cardinality: one per incidence. -/
def card (edge : IVec Sk 32) : FVec Ideal Sn .f32 :=
  Host.scatterAdd vecScatterDims zerosN (colV edge) (broadcastInDim Sk ![] h0k (constant (F := Ideal) S0 .f32 0x3F800000#32))

/-- The reciprocal where the entry is positive, zero elsewhere. -/
def recip (d : FVec Ideal Sn .f32) : FVec Ideal Sn .f32 :=
  select (cmpf .ogt d zerosN) (Host.divf (broadcastInDim Sn ![] h0n (constant (F := Ideal) S0 .f32 0x3F800000#32)) d)
    (broadcastInDim Sn ![] h0n (id (constant (F := Ideal) S0 .f32 0x00000000#32)))

/-- Rows of `x` taken at the incidences' `src` words, added onto zeros at their `dst` words. -/
def agg (x : FVec Ideal Snf .f32) (src dst : IVec Sk 32) : FVec Ideal Snf .f32 :=
  Host.scatterAdd (rowScatterDims 50000 500000 256 wfSm) zerosNF (colV dst)
    (Host.gather (rowGatherDims 50000 500000 256 wfGm) x (colV (wrapV src)))

/-- The same with the row of incidence `k` first multiplied by the entry of `v` taken at `k`'s `vsrc` word. -/
def msgAgg (v : FVec Ideal Sn .f32) (x : FVec Ideal Snf .f32) (vsrc src dst : IVec Sk 32) : FVec Ideal Snf .f32 :=
  Host.scatterAdd (rowScatterDims 50000 500000 256 wfSm) zerosNF (colV dst)
    (mulf (broadcastInDim Skf ![0, 1] hk1f (colV (Host.gather (vecGatherDims 50000 500000 wfGv) v (colV (wrapV vsrc)))))
      (Host.gather (rowGatherDims 50000 500000 256 wfGm) x (colV (wrapV src))))

/-- Row `i` of `x` multiplied by `v i`. -/
def scaleRows (v : FVec Ideal Sn .f32) (x : FVec Ideal Snf .f32) : FVec Ideal Snf .f32 :=
  mulf (broadcastInDim Snf ![0, 1] hn1f (broadcastInDim Sn1 ![0] hn1 v)) x

/-- The bias repeated down the rows. -/
def biasRows (b : FVec Ideal Sf .f32) : FVec Ideal Snf .f32 :=
  broadcastInDim Snf ![0, 1] h1f (broadcastInDim S1f ![1] hf1 b)

/-- Scaling after each aggregation. -/
def scaledAfter (xl : FVec Ideal Snf .f32) (node edge : IVec Sk 32) (w : FVec Ideal Sn .f32) (b : FVec Ideal Sf .f32) :
    FVec Ideal Snf .f32 :=
  addf (scaleRows (recip (deg node edge w)) (agg (scaleRows (recip (card edge)) (agg xl node edge)) edge node)) (biasRows b)

/-- Scaling each message before it is added. -/
def scaledBefore (xl : FVec Ideal Snf .f32) (node edge : IVec Sk 32) (w : FVec Ideal Sn .f32) (b : FVec Ideal Sf .f32) :
    FVec Ideal Snf .f32 :=
  addf (msgAgg (recip (deg node edge w)) (msgAgg (recip (card edge)) xl edge node edge) node edge node) (biasRows b)

/-! ## Each stage at an entry -/

/-- The row a gather takes for a word: wrapped, then clamped. -/
abbrev row (v : BitVec 32) : Fin 50000 := srcRow 50000 hN 50000#32 v

/-- A word that, read signed, is a row number names that row: it is not negative, so it is not wrapped, and it is below
    50000, so it is not clamped. -/
theorem row_of_hit (v : BitVec 32) (i : Fin 50000) (h : v.toInt = (i.val : Int)) : row v = i := by
  have hlt : v.slt 0#32 = false := by
    simp [BitVec.slt, h]
  have hw : wrapIdx 50000#32 v = v := by
    unfold wrapIdx IntOp.cmpi Scalar.select
    simp [hlt]
  show clampRow 50000 hN (wrapIdx 50000#32 v) = i
  rw [hw]
  unfold clampRow
  refine Fin.ext ?_
  show min v.toInt.toNat (50000 - 1) = i.val
  rw [h]
  have := i.isLt
  simp
  omega

/-- The f32 word `0x3F800000` is the number one. -/
theorem ofBits_one : Ideal.ofBits .f32 0x3F800000#32 = 1 := by
  simp [Ideal.ofBits, Ideal.ieee]
  rw [← EReal.coe_mul, ← EReal.coe_one]
  congr 1
  norm_num

theorem recip_apply (d : FVec Ideal Sn .f32) (j : Sn.Idx) :
    recip d j = Scalar.select (Ideal.cmp .ogt (d j) 0) (Ideal.div 1 (d j)) (0 : EReal) := by
  show Scalar.select (Ideal.cmp .ogt (d j) (Ideal.ofBits .f32 0x00000000#32))
    (Ideal.div (Ideal.ofBits .f32 0x3F800000#32) (d j)) (Ideal.ofBits .f32 0x00000000#32) = _
  rw [Ideal.ofBits_zero_f32, ofBits_one]

theorem recip_bounds (d : FVec Ideal Sn .f32) (i : Fin 50000) : 0 ≤ recip d (ix1 i) ∧ recip d (ix1 i) ≠ ⊤ := by
  rw [recip_apply]
  exact guarded_recip_bounds _

theorem scaleRows_apply (v : FVec Ideal Sn .f32) (x : FVec Ideal Snf .f32) (i : Fin 50000) (f : Fin 256) :
    scaleRows v x (ix2 i f) = v (ix1 i) * x (ix2 i f) := by
  unfold scaleRows
  rw [mulf_apply]
  congr 1
  rw [broadcastInDim_apply _ hn1f _ (ix2 i f) (ix2 i 0) (fun a => by
    match a with
    | ⟨0, _⟩ => rfl
    | ⟨1, _⟩ => rfl)]
  exact col_apply hn1 v i 0

theorem wrapV_apply (s : IVec Sk 32) (k : Fin 500000) : wrapV s (ix1 k) = wrapIdx 50000#32 (s (ix1 k)) := rfl

theorem agg_apply (x : FVec Ideal Snf .f32) (src dst : IVec Sk 32) (i : Fin 50000) (f : Fin 256) :
    agg x src dst (ix2 i f)
      = 0 + ∑ k : Fin 500000, if (dst (ix1 k)).toInt = (i.val : Int) then x (ix2 (row (src (ix1 k))) f) else 0 :=
  whole_apply hN 50000#32 wfGm wfSm h0k hck h0nf x src dst i f

theorem msgAgg_apply (v : FVec Ideal Sn .f32) (x : FVec Ideal Snf .f32) (vsrc src dst : IVec Sk 32) (i : Fin 50000) (f : Fin 256) :
    msgAgg v x vsrc src dst (ix2 i f)
      = 0 + ∑ k : Fin 500000, if (dst (ix1 k)).toInt = (i.val : Int)
          then v (ix1 (row (vsrc (ix1 k)))) * x (ix2 (row (src (ix1 k))) f) else 0 := by
  unfold msgAgg
  rw [rowScatterAdd_apply]
  have hz : zerosNF (ix2 i f) = 0 := Ideal.ofBits_zero_f32
  rw [hz]
  refine congrArg (fun s => (0 : EReal) + s) ?_
  refine Finset.sum_congr rfl fun k _ => ?_
  unfold colV
  rw [col_apply hck dst k 0, mulf_apply, rowGather_apply hN, col_apply hck _ k 0, wrapV_apply]
  rw [broadcastInDim_apply _ hk1f _ (ix2 k f) (ix2 k 0) (fun a => by
    match a with
    | ⟨0, _⟩ => rfl
    | ⟨1, _⟩ => rfl)]
  rw [col_apply hck _ k 0, vecGather_apply hN, col_apply hck _ k 0, wrapV_apply]
  rfl

end Cert.Hyper

end
-- ==== Proof.LibSingleAssign.lean ====
/-
  Straight lines of host operations in single-assignment form: each operation writes exactly one buffer, and no buffer is
  written twice. For such a line the valuation after the whole line can be read one variable at a time: the final value of
  the variable the `j`-th operation assigns is that operation's function of the FINAL values of its operands, provided
  each operand is assigned before position `j` or not at all (it is then never touched again). So a value computed by a
  long line is described by one small equation per operation, and two lines can be compared variable by variable
  without ever writing out a whole composed term.
-/
import Idealize.ShloMosaic.Lib.StableHlo.Run
import proofs.«144551_j7060926234637_2_alg».proof.Proof.LibWrittenRefs

namespace Idealize.ShloMosaic.StableHlo

variable {τ : Topo} {sig : RefSig} {Val : EltTy → Type}

/-- The line `ops` assigns the references `W`, one per operation in order, each once. -/
structure SingleAssign (ops : List (HloOp τ sig Val)) (W : List (Ref sig .tc)) : Prop where
  writes : ops.map (fun op => op.writes) = W.map (fun r => ({Proc.devRef (τ := τ) .tc r} : Finset (DevRef τ sig)))
  nodup : W.Nodup

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- In a list without repetition the entry at position `i` does not occur from a later position `j` on. -/
theorem not_mem_drop_of_nodup {α : Type} : ∀ (W : List α), W.Nodup → ∀ (i j : Nat) (x : α), W[i]? = some x → i < j → x ∉ W.drop j
  | [], _, _, _, _, h, _ => by simp at h
  | _ :: _, _, _, 0, _, _, hlt => absurd hlt (Nat.not_lt_zero _)
  | r :: W', hn, 0, j + 1, x, h, _ => by
    simp only [List.getElem?_cons_zero, Option.some.injEq] at h
    subst h
    rw [List.drop_succ_cons]
    exact fun hm => (List.nodup_cons.mp hn).1 (List.mem_of_mem_drop hm)
  | r :: W', hn, i + 1, j + 1, x, h, hlt => by
    rw [List.drop_succ_cons]
    rw [List.getElem?_cons_succ] at h
    exact not_mem_drop_of_nodup W' (List.nodup_cons.mp hn).2 i j x h (Nat.lt_of_succ_lt_succ hlt)

/-- The final value of the variable the `j`-th operation assigns is that operation's result over the valuation before it. -/
theorem after_at : ∀ (ops : List (HloOp τ sig Val)) (W : List (Ref sig .tc)),
    ops.map (fun op => op.writes) = W.map (fun r => ({Proc.devRef (τ := τ) .tc r} : Finset (DevRef τ sig))) → W.Nodup →
    ∀ (V : Valuation τ sig Val) (j : Nat) (op : HloOp τ sig Val) (y : Ref sig .tc), ops[j]? = some op → W[j]? = some y →
      after ops V (Proc.devRef .tc y) = op.result (after (ops.take j) V) (Proc.devRef .tc y)
  | [], _, _, _, _, _, _, _, hop, _ => by simp at hop
  | _ :: _, [], hw, _, _, _, _, _, _, _ => by simp at hw
  | o :: os, r :: W', hw, hn, V, 0, op, y, hop, hy => by
    simp only [List.getElem?_cons_zero, Option.some.injEq] at hop hy
    subst hop hy
    simp only [List.map_cons, List.cons.injEq] at hw
    rw [after_cons, List.take_zero, after_nil]
    exact after_of_map_writes_eq hw.2 _ (List.nodup_cons.mp hn).1
  | o :: os, r :: W', hw, hn, V, j + 1, op, y, hop, hy => by
    simp only [List.map_cons, List.cons.injEq] at hw
    rw [List.getElem?_cons_succ] at hop hy
    rw [after_cons, List.take_succ_cons, after_cons]
    exact after_at os W' hw.2 (List.nodup_cons.mp hn).2 (o.result V) j op y hop hy

variable {ops : List (HloOp τ sig Val)} {W : List (Ref sig .tc)}

/-- A reference not assigned from position `j` on already holds its final value before position `j`. -/
theorem after_take_of_not_mem_drop (h : SingleAssign ops W) (V : Valuation τ sig Val) (j : Nat) {x : Ref sig .tc} (hx : x ∉ W.drop j) :
    after (ops.take j) V (Proc.devRef .tc x) = after ops V (Proc.devRef .tc x) := by
  conv_rhs => rw [← List.take_append_drop j ops, after_append]
  refine (after_of_map_writes_eq (W := W.drop j) ?_ _ hx).symm
  rw [List.map_drop, h.writes, List.map_drop]

/-- A reference assigned at an earlier position already holds its final value. -/
theorem after_take_of_lt (h : SingleAssign ops W) (V : Valuation τ sig Val) {i j : Nat} {x : Ref sig .tc} (hi : W[i]? = some x) (hij : i < j) :
    after (ops.take j) V (Proc.devRef .tc x) = after ops V (Proc.devRef .tc x) :=
  after_take_of_not_mem_drop h V j (not_mem_drop_of_nodup W h.nodup i j x hi hij)

/-- A reference the line never assigns holds throughout what it held before the line. -/
theorem after_of_not_assigned (h : SingleAssign ops W) (V : Valuation τ sig Val) {x : Ref sig .tc} (hx : x ∉ W) :
    after ops V (Proc.devRef .tc x) = V (Proc.devRef .tc x) :=
  after_of_map_writes_eq h.writes V hx

/-- and so did it before any position. -/
theorem after_take_of_not_assigned (h : SingleAssign ops W) (V : Valuation τ sig Val) (j : Nat) {x : Ref sig .tc} (hx : x ∉ W) :
    after (ops.take j) V (Proc.devRef .tc x) = after ops V (Proc.devRef .tc x) :=
  after_take_of_not_mem_drop h V j fun hm => hx (List.mem_of_mem_drop hm)

/-! ## The final value of an assigned variable, builder by builder -/

theorem final_nullary (h : SingleAssign ops W) (V : Valuation τ sig Val) (j : Nat) {y : Ref sig .tc} {v : y.ty.Contents Val} {hy}
    (hop : ops[j]? = some (nullary y v hy)) (hw : W[j]? = some y) :
    after ops V (Proc.devRef .tc y) = v := by
  rw [after_at ops W h.writes h.nodup V j _ y hop hw, nullary_result]

theorem final_unary (h : SingleAssign ops W) (V : Valuation τ sig Val) (j : Nat) {x y : Ref sig .tc}
    {f : x.ty.Contents Val → y.ty.Contents Val} {hx hy}
    (hop : ops[j]? = some (unary x y f hx hy)) (hw : W[j]? = some y)
    (sx : after (ops.take j) V (Proc.devRef .tc x) = after ops V (Proc.devRef .tc x)) :
    after ops V (Proc.devRef .tc y) = f (after ops V (Proc.devRef .tc x)) := by
  rw [after_at ops W h.writes h.nodup V j _ y hop hw, unary_result, sx]

theorem final_binary (h : SingleAssign ops W) (V : Valuation τ sig Val) (j : Nat) {a b y : Ref sig .tc}
    {f : a.ty.Contents Val → b.ty.Contents Val → y.ty.Contents Val} {ha hb hy}
    (hop : ops[j]? = some (binary a b y f ha hb hy)) (hw : W[j]? = some y)
    (sa : after (ops.take j) V (Proc.devRef .tc a) = after ops V (Proc.devRef .tc a))
    (sb : after (ops.take j) V (Proc.devRef .tc b) = after ops V (Proc.devRef .tc b)) :
    after ops V (Proc.devRef .tc y) = f (after ops V (Proc.devRef .tc a)) (after ops V (Proc.devRef .tc b)) := by
  rw [after_at ops W h.writes h.nodup V j _ y hop hw, binary_result, sa, sb]

theorem final_ternary (h : SingleAssign ops W) (V : Valuation τ sig Val) (j : Nat) {c a b y : Ref sig .tc}
    {f : c.ty.Contents Val → a.ty.Contents Val → b.ty.Contents Val → y.ty.Contents Val} {hc ha hb hy}
    (hop : ops[j]? = some (ternary c a b y f hc ha hb hy)) (hw : W[j]? = some y)
    (sc : after (ops.take j) V (Proc.devRef .tc c) = after ops V (Proc.devRef .tc c))
    (sa : after (ops.take j) V (Proc.devRef .tc a) = after ops V (Proc.devRef .tc a))
    (sb : after (ops.take j) V (Proc.devRef .tc b) = after ops V (Proc.devRef .tc b)) :
    after ops V (Proc.devRef .tc y)
      = f (after ops V (Proc.devRef .tc c)) (after ops V (Proc.devRef .tc a)) (after ops V (Proc.devRef .tc b)) := by
  rw [after_at ops W h.writes h.nodup V j _ y hop hw, ternary_result, sc, sa, sb]

theorem final_reshape (h : SingleAssign ops W) (V : Valuation τ sig Val) (j : Nat) {x y : Ref sig .tc}
    {he : x.ty.elt = y.ty.elt} {hn : x.ty.shape.ShapeCasts y.ty.shape} {hx hy}
    (hop : ops[j]? = some (reshape x y he hn hx hy)) (hw : W[j]? = some y)
    (sx : after (ops.take j) V (Proc.devRef .tc x) = after ops V (Proc.devRef .tc x)) :
    after ops V (Proc.devRef .tc y) = fun i => he ▸ shapeCast y.ty.shape (after ops V (Proc.devRef .tc x)) hn i := by
  rw [after_at ops W h.writes h.nodup V j _ y hop hw, reshape_result, sx]

end Idealize.ShloMosaic.StableHlo
-- ==== Proof.KernelTail.lean ====
/-
  The kernel program's result, read as the stages of the hypergraph convolution with the scalings applied after each
  aggregation. The host operations after the launch are the printed composition of those stages over the launch's
  result array (the linear transform), the two rows of the index array, the hyperedge weights and the bias; the index
  rows are what the four operations before the launch sliced out of the index array.
-/
import proofs.«144551_j7060926234637_2_alg».proof.Proof.KernelIdealFrame
import proofs.«144551_j7060926234637_2_alg».proof.Proof.HyperStages
import Idealize.ShloMosaic.Lib.StableHlo.Run
import proofs.«144551_j7060926234637_2_alg».proof.Proof.LibSingleAssign

noncomputable section

namespace Cert.KernelIdeal.Tail

open Cert.KernelIdeal Cert.KernelIdeal.Gen Cert.KernelIdeal.Frame Idealize.ShloMosaic Idealize.ShloMosaic.TcCoe
  Idealize.SL.Sem Idealize.ShloMosaic.StableHlo Cert.Hyper

set_option maxRecDepth 200000 in
set_option maxHeartbeats 4000000 in
/-- The host operations after the launch compute, from any contents of the buffers they read, the convolution with the
    scalings after the aggregations. -/
theorem tail_after (Wv : Valuation τ sig (Elt Ideal)) :
    StableHlo.after (tailOps (F := Ideal)).flatten Wv (Proc.devRef .tc main_v57)
      = scaledAfter (Wv (Proc.devRef .tc main_v4)) (Wv (Proc.devRef .tc main_v1)) (Wv (Proc.devRef .tc main_v3))
          (Wv (Proc.devRef .tc main_arg2)) (Wv (Proc.devRef .tc main_arg4)) := by
  show StableHlo.after (hostOps1 ++ (hostOps1_1 ++ (hostOps1_2 ++ (hostOps1_3 ++ (hostOps1_4 ++ []))))) Wv _ = _
  rw [List.append_nil, after_append, after_append, after_append, after_append]
  simp only [hostOps1_4]
  after_results_simp
  simp only [StableHlo.TRef.toBuf, StableHlo.TRef.ofBuf, cast_eq]
  rfl

/-- The node words as the launch finds them: row 0 of the index array. -/
theorem V_v1 (m : (ℓ : Loc nD τ sig) → Buf (Elt Ideal) ℓ) (c : Dev nD) :
    V0 m c (Proc.devRef .tc main_v1) = nodeWords (m ((c : Thread nD τ).loc main_arg1)) := by
  show StableHlo.after (List.flatten [hostOps0]) (fun b => m (c, b)) (Proc.devRef .tc main_v1) = _
  simp only [hostOps0, List.flatten_cons, List.flatten_nil, List.append_nil]
  after_results
  rfl

/-- The hyperedge words as the launch finds them: row 1 of the index array. -/
theorem V_v3 (m : (ℓ : Loc nD τ sig) → Buf (Elt Ideal) ℓ) (c : Dev nD) :
    V0 m c (Proc.devRef .tc main_v3) = edgeWords (m ((c : Thread nD τ).loc main_arg1)) := by
  show StableHlo.after (List.flatten [hostOps0]) (fun b => m (c, b)) (Proc.devRef .tc main_v3) = _
  simp only [hostOps0, List.flatten_cons, List.flatten_nil, List.append_nil]
  after_results
  rfl

/-- THE RESULT BUFFER after the run: the convolution with the scalings after the aggregations, of the launch's result
    array, the two index rows, the hyperedge weights and the bias. -/
theorem v57_eq (m : (ℓ : Loc nD τ sig) → Buf (Elt Ideal) ℓ) (c : Dev nD) :
    Pipeline.afterTail₀ cfgs (dats (F := Ideal) m) 0 (V0 m) tailOps c main_v57
      = scaledAfter ((dats (F := Ideal) m 0 c).arrAt 2 cfg0.N)
          (nodeWords (m ((c : Thread nD τ).loc main_arg1))) (edgeWords (m ((c : Thread nD τ).loc main_arg1)))
          (m ((c : Thread nD τ).loc main_arg2)) (m ((c : Thread nD τ).loc main_arg4)) := by
  unfold Pipeline.afterTail₀
  rw [tail_after]
  have h4 : Pipeline.withArrays (cfgs 0).spec c (V0 m c) (fun w => (dats (F := Ideal) m 0 c).arrAt w (cfgs 0).N)
      (Proc.devRef .tc main_v4) = (dats (F := Ideal) m 0 c).arrAt 2 cfg0.N :=
    Pipeline.withArrays_arr spec0 launch0.win.arr_inj c _ _ 2
  have h1 : Pipeline.withArrays (cfgs 0).spec c (V0 m c) (fun w => (dats (F := Ideal) m 0 c).arrAt w (cfgs 0).N)
      (Proc.devRef .tc main_v1) = nodeWords (m ((c : Thread nD τ).loc main_arg1)) :=
    (Pipeline.withArrays_of_ne _ c (V0 m c) _ main_v1 (by decide)).trans (V_v1 m c)
  have h3 : Pipeline.withArrays (cfgs 0).spec c (V0 m c) (fun w => (dats (F := Ideal) m 0 c).arrAt w (cfgs 0).N)
      (Proc.devRef .tc main_v3) = edgeWords (m ((c : Thread nD τ).loc main_arg1)) :=
    (Pipeline.withArrays_of_ne _ c (V0 m c) _ main_v3 (by decide)).trans (V_v3 m c)
  have h2 : Pipeline.withArrays (cfgs 0).spec c (V0 m c) (fun w => (dats (F := Ideal) m 0 c).arrAt w (cfgs 0).N)
      (Proc.devRef .tc main_arg2) = m ((c : Thread nD τ).loc main_arg2) :=
    (Pipeline.withArrays_of_ne _ c (V0 m c) _ main_arg2 (by decide)).trans (V_of_not_written m c (by decide))
  have h5 : Pipeline.withArrays (cfgs 0).spec c (V0 m c) (fun w => (dats (F := Ideal) m 0 c).arrAt w (cfgs 0).N)
      (Proc.devRef .tc main_arg4) = m ((c : Thread nD τ).loc main_arg4) :=
    (Pipeline.withArrays_of_ne _ c (V0 m c) _ main_arg4 (by decide)).trans (V_of_not_written m c (by decide))
  rw [h4, h1, h3, h2, h5]

end Cert.KernelIdeal.Tail

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«144551_j7060926234637_2_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.KernelProduct.lean ====
/-
  The launch's result, as one matrix product.

  The launch walks 25 grid points. At point t the body multiplies rows 2000·t … 2000·t + 1999 of the first operand
  (rounded to bf16, which on the extended reals changes nothing) by the whole 256 × 256 second operand, accumulating
  from zero, and its 2000 × 256 result is written back over the same rows of the result array. Entry (p, q) of that
  block is the sum over k of A (2000·t + p, k) · W (k, q): entry (2000·t + p, q) of the product of the whole arrays.
  The 25 row blocks tile the 50000 rows, so when the launch is over the result array is the product A · W, and the
  operands are the arguments as the program started with them.
-/
import proofs.«144551_j7060926234637_2_alg».proof.Proof.HyperStages
import proofs.«144551_j7060926234637_2_alg».proof.Proof.KernelIdealFrame
import proofs.«144551_j7060926234637_2_alg».proof.Proof.LibRowBlock
import Idealize.ShloMosaic.Lib.Pipeline.Value

set_option maxRecDepth 16384

noncomputable section

namespace Cert.KernelIdeal.Product

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The blocks' places -/

/-- The zero offsets of a whole-buffer access, as the constant function. -/
theorem hz : (![0, 0] : Fin 2 → Nat) = fun _ => 0 := funext fun a => by fin_cases a <;> rfl

/-- The launch has 25 points. -/
theorem point_lt (t : Fin cfg0.N) : t.val < 25 := lt_of_lt_of_eq t.isLt N_0

/-- The printed index maps, decided over the grid: at point t the first operand's and the result's block is row block t
    (column block 0), the second operand's block is the whole operand. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p, column k of the first operand's block at point t is row 2000·t + p, column k of its array. -/
theorem emb0 (t : Fin cfg0.N) (p : Fin 2000) (k : Fin 256) (hP : 2000 * t.val + p.val < 50000) :
    ((cfg0.win 0).blk t).view.emb (ix2 p k) = ix2 (⟨2000 * t.val + p.val, hP⟩ : Fin 50000) k := by
  obtain ⟨e0, e1, -, -, -, -⟩ := idx_facts t
  funext a; apply Fin.ext
  match a with
  | ⟨0, _⟩ => show win0_0.index t (0 : Fin 2) * 2000 + 1 * p.val = 2000 * t.val + p.val; omega
  | ⟨1, _⟩ => show win0_0.index t (1 : Fin 2) * 256 + 1 * k.val = k.val; omega

/-- The second operand's block at any point is the whole operand. -/
theorem emb1 (t : Fin cfg0.N) (k : Fin 256) (q : Fin 256) : ((cfg0.win 1).blk t).view.emb (ix2 k q) = ix2 k q := by
  obtain ⟨-, -, e2, e3, -, -⟩ := idx_facts t
  funext a; apply Fin.ext
  match a with
  | ⟨0, _⟩ => show win0_1.index t (0 : Fin 2) * 256 + 1 * k.val = k.val; omega
  | ⟨1, _⟩ => show win0_1.index t (1 : Fin 2) * 256 + 1 * q.val = q.val; omega

/-- Row p, column q of the result's block at point t is row 2000·t + p, column q of the result array. -/
theorem emb2 (t : Fin cfg0.N) (p : Fin 2000) (q : Fin 256) (hP : 2000 * t.val + p.val < 50000) :
    ((cfg0.win 2).blk t).view.emb (ix2 p q) = ix2 (⟨2000 * t.val + p.val, hP⟩ : Fin 50000) q := by
  obtain ⟨-, -, -, -, e4, e5⟩ := idx_facts t
  funext a; apply Fin.ext
  match a with
  | ⟨0, _⟩ => show win0_2.index t (0 : Fin 2) * 2000 + 1 * p.val = 2000 * t.val + p.val; omega
  | ⟨1, _⟩ => show win0_2.index t (1 : Fin 2) * 256 + 1 * q.val = q.val; omega

/-! ## One block of the product -/

/-- The body's payload on a row block x0 whose row p is row P of A, and on a right operand x1 that agrees with W at
    column q: its entry (p, q) is entry (P, q) of the product of the whole arrays. Rounding the operands to bf16 is the
    identity on the extended reals, and the accumulator starts at zero, so both sides are the same sum over k. -/
theorem pay_apply (A : FVec Ideal S50000x256 .f32) (W : FVec Ideal S256x256 .f32)
    (x0 : Vec Ideal S2000x256 .f32) (x1 : Vec Ideal S256x256 .f32) (P : Fin 50000) (p : Fin 2000) (q : Fin 256)
    (hx : ∀ k : Fin 256, x0 (ix2 p k) = A (ix2 P k)) (hw : ∀ k : Fin 256, x1 (ix2 k q) = W (ix2 k q)) :
    k0_pay1 x0 x1 (ix2 p q) = Cert.Hyper.product A W (ix2 P q) := by
  unfold k0_pay1 Cert.Hyper.product
  exact Cert.Lib.RowBlock.matmul_eq_dotGeneral none none HostSchedule.single A W
    (truncf .bf16 x0 bitsLt_bf16_f32) (truncf .bf16 x1 bitsLt_bf16_f32) P p q hx hw

/-- The first operand's block at point t, read at row p: row 2000·t + p of the array the launch found. -/
theorem iblk0_apply (c : Dev nD) (t : Fin cfg0.N) (p : Fin 2000) (k : Fin 256) (hP : 2000 * t.val + p.val < 50000) :
    iblk m c 0 t (ix2 p k) = (V m c main_arg0 : FVec Ideal S50000x256 .f32) (ix2 (⟨2000 * t.val + p.val, hP⟩ : Fin 50000) k) :=
  congrArg (V m c main_arg0 : FVec Ideal S50000x256 .f32) (emb0 t p k hP)

/-- The second operand's block at any point: the array the launch found. -/
theorem iblk1_apply (c : Dev nD) (t : Fin cfg0.N) (k : Fin 256) (q : Fin 256) :
    iblk m c 1 t (ix2 k q) = (V m c main_arg3 : FVec Ideal S256x256 .f32) (ix2 k q) :=
  congrArg (V m c main_arg3 : FVec Ideal S256x256 .f32) (emb1 t k q)

/-- What point t writes back is block t of the product of the two operand arrays as the launch found them. -/
theorem flushed2_eq (c : Dev nD) (t : Fin cfg0.N) :
    (dats m 0 c).flushed 2 t
      = ((cfg0.win 2).blk t).view.read (Elt Ideal) (Cert.Hyper.product (V m c main_arg0) (V m c main_arg3)) := by
  show (cfg0.win 2).cut (grid0.coords t) ((dats m 0 c).after 2 t) = _
  rw [after0_2]
  unfold out0_2
  rw [View.canon_unit_zero hz]
  simp only [View.ld_unit_zero (S := S2000x256) hz, View.ld_unit_zero (S := S256x256) hz]
  have ht := point_lt t
  funext j
  obtain ⟨p, q, rfl⟩ : ∃ (p : Fin 2000) (q : Fin 256), j = ix2 p q := ⟨j 0, j 1, eq_ix2 j⟩
  have hP : 2000 * t.val + p.val < 50000 := by have := p.isLt; omega
  refine (pay_apply (V m c main_arg0) (V m c main_arg3) (iblk m c 0 t) (iblk m c 1 t) ⟨2000 * t.val + p.val, hP⟩ p q
    (fun k => iblk0_apply m c t p k hP) (fun k => iblk1_apply m c t k q)).trans ?_
  exact (congrArg (Cert.Hyper.product (V m c main_arg0) (V m c main_arg3)) (emb2 t p q hP)).symm

/-! ## The blocks tile the array -/

/-- An index of the result array is in point t's block iff each coordinate is in the block's range on its axis. -/
theorem mem_blk2 (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v4).slice (win0_2.rect t)).set ↔ _
  rw [View.set_slice_whole, Rect.mem_set_unit]
  exact Iff.rfl

/-- Every index of the result array is in the block of the point its row falls in, and every point writes back. -/
theorem cover2 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hlt : (i 0).val / 2000 < cfg0.N := lt_of_lt_of_eq (show (i 0).val / 2000 < 25 by omega) N_0.symm
  obtain ⟨-, -, -, -, e4, e5⟩ := idx_facts ⟨(i 0).val / 2000, hlt⟩
  have e4' : win0_2.index ⟨(i 0).val / 2000, hlt⟩ (0 : Fin 2) = (i 0).val / 2000 := e4
  refine ⟨⟨(i 0).val / 2000, hlt⟩, flush0_2 _, ?_⟩
  rw [mem_blk2]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    omega
  | ⟨1, _⟩ =>
    show win0_2.index ⟨(i 0).val / 2000, hlt⟩ (1 : Fin 2) * 256 ≤ (i 1).val
      ∧ (i 1).val < win0_2.index ⟨(i 0).val / 2000, hlt⟩ (1 : Fin 2) * 256 + 256
    omega

/-! ## The result array after the run -/

/-- The launch's result array, after its last write-back, is the product of the first and fourth arguments as the program
    started with them: every block is the product's block, the blocks cover the array, and the four operations before the
    launch write neither argument. -/
theorem final2 (c : Dev nD) :
    (Cert.KernelIdeal.Frame.dats (F := Ideal) m 0 c).arrAt 2 cfg0.N
      = Cert.Hyper.product (m ((c : Thread nD τ).loc main_arg0)) (m ((c : Thread nD τ).loc main_arg3)) := by
  have h := (dats m 0 c).arrAt_eq_of_cover 2 (Cert.Hyper.product (V m c main_arg0) (V m c main_arg3))
    (fun t _ => flushed2_eq m c t) cover2
  rw [V_of_not_written m c (r := main_arg0) (by decide), V_of_not_written m c (r := main_arg3) (by decide)] at h
  exact h

end Cert.KernelIdeal.Product

end
-- ==== Proof.KernelRun.lean ====
/-
  The kernel program's run, read: every weakly fair execution terminates; the result buffer ends at the hypergraph
  convolution with the scalings after the aggregations, over the whole matrix product of the first and fourth arguments
  (the launch's row blocks put together), and the five arguments end as they started.
-/
import proofs.«144551_j7060926234637_2_alg».proof.Proof.KernelTail
import proofs.«144551_j7060926234637_2_alg».proof.Proof.KernelProduct

noncomputable section

namespace Cert.KernelIdeal.Run

open Cert.KernelIdeal Cert.KernelIdeal.Gen Cert.KernelIdeal.Frame Idealize.ShloMosaic Idealize.ShloMosaic.TcCoe
  Idealize.SL.Sem Cert.Hyper

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v57)
        = scaledAfter (product (m ((c.tc : Thread nD τ).loc main_arg0)) (m ((c.tc : Thread nD τ).loc main_arg3)))
            (nodeWords (m ((c.tc : Thread nD τ).loc main_arg1))) (edgeWords (m ((c.tc : Thread nD τ).loc main_arg1)))
            (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v57 (Pipeline.mem_restRefs_of main_v57 (by decide) (by decide))).trans
        ((Tail.v57_eq m c).trans (by rw [Product.final2])),
     ((h c).1 0).trans (((dats m 0 c).arrAt_in 0 rfl _).trans ((A_eq m c 0).trans (V_of_not_written m c (by decide)))),
     ((h c).2 main_arg1 (Pipeline.mem_restRefs_of main_arg1 (by decide) (by decide))).trans
       (tail_of_not_written m (dats m) c (by decide) (by decide) (by decide)),
     ((h c).2 main_arg2 (Pipeline.mem_restRefs_of main_arg2 (by decide) (by decide))).trans
       (tail_of_not_written m (dats m) c (by decide) (by decide) (by decide)),
     ((h c).1 1).trans (((dats m 0 c).arrAt_in 1 rfl _).trans ((A_eq m c 1).trans (V_of_not_written m c (by decide)))),
     ((h c).2 main_arg4 (Pipeline.mem_restRefs_of main_arg4 (by decide) (by decide))).trans
       (tail_of_not_written m (dats m) c (by decide) (by decide) (by decide))⟩) (run_main m ρ)

end Cert.KernelIdeal.Run

end
-- ==== Proof.RefValue.lean ====
/-
  The reference program's result, read as the stages of the hypergraph convolution with each message scaled before it
  is added: the printed operations' composed term IS that composition (the same operations, the same constants), so
  the two are one term.
-/
import proofs.«144551_j7060926234637_2_alg».proof.Proof.RefRun
import proofs.«144551_j7060926234637_2_alg».proof.Proof.HyperStages

noncomputable section

namespace Cert.ReferenceIdeal.RefValue

open Cert.ReferenceIdeal Cert.ReferenceIdeal.Gen Cert.ReferenceIdeal.ValueP Idealize.ShloMosaic Idealize.ShloMosaic.TcCoe
  Idealize.SL.Sem Cert.Hyper

set_option maxRecDepth 16384 in
theorem res_eq (m : (ℓ : Loc nD τ sig) → Buf (Elt Ideal) ℓ) (c : Dev nD) :
    res_main_v71 (F := Ideal) m c
      = scaledBefore (product (m ((c.tc : Thread nD τ).loc main_arg0)) (m ((c.tc : Thread nD τ).loc main_arg3)))
          (nodeWords (m ((c.tc : Thread nD τ).loc main_arg1))) (edgeWords (m ((c.tc : Thread nD τ).loc main_arg1)))
          (m ((c.tc : Thread nD τ).loc main_arg2)) (m ((c.tc : Thread nD τ).loc main_arg4)) := by
  unfold res_main_v71
  rfl

end Cert.ReferenceIdeal.RefValue

end
-- ==== Proof.HyperLaw.lean ====
/-
  The two placements of the scalings give the same array, entry by entry: both are read at entry (i, f) as sums over the
  incidences, and the law of the extended reals joins them. No finiteness of any input is used.
-/
import proofs.«144551_j7060926234637_2_alg».proof.Proof.HyperStages

noncomputable section

open scoped BigOperators

namespace Cert.Hyper

open Idealize.ShloMosaic Idealize.ShloMosaic.ValueIdx Cert.Lib.Rows Cert.Lib.EdgeAggregate

theorem scaledAfter_eq_scaledBefore (xl : FVec Ideal Snf .f32) (node edge : IVec Sk 32) (w : FVec Ideal Sn .f32)
    (b : FVec Ideal Sf .f32) : scaledAfter xl node edge w b = scaledBefore xl node edge w b := by
  funext j
  obtain ⟨i, f, rfl⟩ : ∃ (i : Fin 50000) (f : Fin 256), j = ix2 i f := ⟨j 0, j 1, eq_ix2 j⟩
  unfold scaledAfter scaledBefore
  rw [addf_apply, addf_apply]
  refine congrArg (fun s => s + biasRows b (ix2 i f)) ?_
  rw [scaleRows_apply, agg_apply, msgAgg_apply]
  have hin : ∀ k : Fin 500000,
      scaleRows (recip (card edge)) (agg xl node edge) (ix2 (row (edge (ix1 k))) f)
        = recip (card edge) (ix1 (row (edge (ix1 k))))
          * (0 + ∑ k' : Fin 500000, if (edge (ix1 k')).toInt = ((row (edge (ix1 k))).val : Int)
              then xl (ix2 (row (node (ix1 k'))) f) else 0) := fun k => by
    rw [scaleRows_apply, agg_apply]
  have hin' : ∀ k : Fin 500000,
      msgAgg (recip (card edge)) xl edge node edge (ix2 (row (edge (ix1 k))) f)
        = 0 + ∑ k' : Fin 500000, if (edge (ix1 k')).toInt = ((row (edge (ix1 k))).val : Int)
            then recip (card edge) (ix1 (row (edge (ix1 k')))) * xl (ix2 (row (node (ix1 k'))) f) else 0 := fun k =>
    msgAgg_apply _ _ _ _ _ _ _
  simp only [hin, hin']
  exact scale_after_eq_scale_before (ι := Fin 500000)
    (fun (e : Fin 50000) k => (edge (ix1 k)).toInt = (e.val : Int))
    (fun (i : Fin 50000) k => (node (ix1 k)).toInt = (i.val : Int))
    (fun k => row (edge (ix1 k))) (fun k => row (node (ix1 k)))
    (fun e k h => row_of_hit _ e h) (fun i k h => row_of_hit _ i h)
    (fun e => recip (card edge) (ix1 e)) (fun i => recip (deg node edge w) (ix1 i))
    (fun e => (recip_bounds _ e).1) (fun e => (recip_bounds _ e).2)
    (fun i => (recip_bounds _ i).1) (fun i => (recip_bounds _ i).2)
    (fun n => xl (ix2 n f)) i

end Cert.Hyper

end
-- ==== Proof.Claims.lean ====
/-
  The five claims. Both programs compute a hypergraph convolution: node features are transformed by one matrix
  product, gathered along the incidences onto hyperedges, gathered back onto nodes, and scaled by the guarded reciprocals
  of the hyperedge cardinalities and of the nodes' weighted degrees, plus a bias. The kernel program forms the product
  in 25 row blocks on the matrix unit and scales each aggregate once; the reference forms it in one host product and
  scales every message. On the extended reals the row blocks of a product are the product's rows, and a nonnegative
  finite-or-zero weight moves across a finite sum, so the two results are one array. No finiteness of the inputs is used.
-/
import proofs.«144551_j7060926234637_2_alg».proof.Defs
import proofs.«144551_j7060926234637_2_alg».proof.Proof.Gen.Kernel
import proofs.«144551_j7060926234637_2_alg».proof.Proof.Gen.KernelIdeal
import proofs.«144551_j7060926234637_2_alg».proof.Proof.Gen.ReferenceIdeal
import proofs.«144551_j7060926234637_2_alg».proof.Proof.Gen.Pre_finite_inputs
import proofs.«144551_j7060926234637_2_alg».proof.Proof.KernelFrame
import proofs.«144551_j7060926234637_2_alg».proof.Proof.KernelIdealFrame
import proofs.«144551_j7060926234637_2_alg».proof.Proof.KernelRun
import proofs.«144551_j7060926234637_2_alg».proof.Proof.RefValue
import proofs.«144551_j7060926234637_2_alg».proof.Proof.HyperLaw

noncomputable section

namespace Cert.Proof.Claims

open Idealize.ShloMosaic Idealize.ShloMosaic.TcCoe Idealize.SL.Sem Cert.Hyper

theorem frame_k : Cert.frame_Kernel := fun m ρ _ => Cert.Kernel.Frame.frame m ρ

theorem frame_ki : Cert.frame_KernelIdeal := fun m ρ _ => Cert.KernelIdeal.Frame.frame m ρ

/-- The reference has no launch: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two idealized programs end with the same result array: the kernel program's is the convolution scaled after
    each aggregation over the row-blocked product, which is the whole product; the reference's is the convolution with
    every message scaled, over the same product of the same arguments. -/
theorem algebraic : Cert.algebraic_KernelIdeal_ReferenceIdeal := by
  intro m ρ m' ρ' _ hagree
  refine ⟨fun c => scaledAfter
      (product (m ((c.tc : Thread Cert.KernelIdeal.nD Cert.KernelIdeal.τ).loc Cert.KernelIdeal.main_arg0))
        (m ((c.tc : Thread Cert.KernelIdeal.nD Cert.KernelIdeal.τ).loc Cert.KernelIdeal.main_arg3)))
      (nodeWords (m ((c.tc : Thread Cert.KernelIdeal.nD Cert.KernelIdeal.τ).loc Cert.KernelIdeal.main_arg1)))
      (edgeWords (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4)), ?_, ?_⟩
  · exact Cert.KernelIdeal.Run.run m ρ
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1,
      (hagree c).2.2.2.2]
    exact (scaledAfter_eq_scaledBefore _ _ _ _ _).symm

end Cert.Proof.Claims

end
-- ==== Proof.lean ====
/-
  The certificate: a hypergraph convolution whose linear transform runs as a row-blocked matrix product on the
  accelerator, against the plain formulation. The frames of the two kernel programs come from the run of the launch
  and of the host operations around it; the reference's from its run; the idealization rewrote nothing; and the two
  idealized programs end with the same array on the extended reals (Proof/Claims.lean).
-/
import proofs.«144551_j7060926234637_2_alg».proof.Defs
import proofs.«144551_j7060926234637_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
